-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x300x4 : Shape := ⟨3, ![64, 300, 4]⟩
abbrev S64x2 : Shape := ⟨2, ![64, 2]⟩
abbrev S64x40x40 : Shape := ⟨3, ![64, 40, 40]⟩
abbrev S_ : Shape := ⟨0, ![]⟩

class Facts : Prop where
  bcast_S_S64x300x4 : S_.BroadcastsInDim S64x300x4 (![] : Fin 0 → Fin S64x300x4.rank)
  reducesTo_S64x300x4_S_d0_1_2 : S64x300x4.ReducesTo [0, 1, 2] S_
  h_S_ : 0 < S_.numel

variable [Facts]

def fn {F : FTy → Type} [FloatOps F] (main_arg0 : FVec F S64x300x4 .f32) (main_arg1 : FVec F S64x300x4 .f32) (main_arg2 : IVec S64x2 32) (main_arg3 : IVec S64x40x40 1) : IVec S_ 1 :=
  let main_v0 : FVec F S64x300x4 .f32 := Host.absf main_arg0
  let main_cst : FVec F S_ .f32 := constant S_ .f32 0x7F800000#32
  let main_v1 : FVec F S64x300x4 .f32 := broadcastInDim S64x300x4 ![] bcast_S_S64x300x4 main_cst
  let main_v2 : IVec S64x300x4 1 := cmpf .olt main_v0 main_v1
  let main_c : IVec S_ 1 := constantI S_ 1 1#1
  let main_v3 : IVec S_ 1 := (fun x v => Host.reduce IntOp.andi x v reducesTo_S64x300x4_S_d0_1_2 h_S_) main_v2 main_c
  let main_v4 : FVec F S64x300x4 .f32 := Host.absf main_arg1
  let main_cst_0 : FVec F S_ .f32 := constant S_ .f32 0x7F800000#32
  let main_v5 : FVec F S64x300x4 .f32 := broadcastInDim S64x300x4 ![] bcast_S_S64x300x4 main_cst_0
  let main_v6 : IVec S64x300x4 1 := cmpf .olt main_v4 main_v5
  let main_c_1 : IVec S_ 1 := constantI S_ 1 1#1
  let main_v7 : IVec S_ 1 := (fun x v => Host.reduce IntOp.andi x v reducesTo_S64x300x4_S_d0_1_2 h_S_) main_v6 main_c_1
  let main_v8 : IVec S_ 1 := andi main_v3 main_v7
  main_v8
-- ==== Kernel.lean ====
abbrev S64x300x4 : Shape := ⟨3, ![64, 300, 4]⟩
abbrev S64x2 : Shape := ⟨2, ![64, 2]⟩
abbrev S64x40x40 : Shape := ⟨3, ![64, 40, 40]⟩
abbrev S64x300x1 : Shape := ⟨3, ![64, 300, 1]⟩
abbrev S64x300 : Shape := ⟨2, ![64, 300]⟩
abbrev S_ : Shape := ⟨0, ![]⟩
abbrev S64x1 : Shape := ⟨2, ![64, 1]⟩
abbrev S1x64x300x4 : Shape := ⟨4, ![1, 64, 300, 4]⟩
abbrev S2x64x300x4 : Shape := ⟨4, ![2, 64, 300, 4]⟩
abbrev S2x64x300x1600 : Shape := ⟨4, ![2, 64, 300, 1600]⟩
abbrev S1x8x104x4 : Shape := ⟨4, ![1, 8, 104, 4]⟩
abbrev S1x8x104x1600 : Shape := ⟨4, ![1, 8, 104, 1600]⟩
abbrev S8x104x4 : Shape := ⟨3, ![8, 104, 4]⟩
abbrev S8x104x1 : Shape := ⟨3, ![8, 104, 1]⟩
abbrev S1x1x1600 : Shape := ⟨3, ![1, 1, 1600]⟩
abbrev S8x104x1600 : Shape := ⟨3, ![8, 104, 1600]⟩
abbrev S2x64x300x40x40 : Shape := ⟨5, ![2, 64, 300, 40, 40]⟩

abbrev nBuf : Space → Nat
  | .hbm => 143
  | .vmem => 4
  | .smem => 0
  | _ => 0

abbrev hbmTy0_0 (i : Nat) : BufTy := match i % 128 with
  | 0 => ⟨S64x300x4, .f32⟩
  | 1 => ⟨S64x300x4, .f32⟩
  | 2 => ⟨S64x2, .i32⟩
  | 3 => ⟨S64x40x40, .i1⟩
  | 4 => ⟨S64x300x1, .f32⟩
  | 5 => ⟨S64x300, .f32⟩
  | 6 => ⟨S64x300x1, .f32⟩
  | 7 => ⟨S64x300, .f32⟩
  | 8 => ⟨S64x300x1, .f32⟩
  | 9 => ⟨S64x300, .f32⟩
  | 10 => ⟨S64x300x1, .f32⟩
  | 11 => ⟨S64x300, .f32⟩
  | 12 => ⟨S_, .f32⟩
  | 13 => ⟨S64x300, .f32⟩
  | 14 => ⟨S64x300, .f32⟩
  | 15 => ⟨S64x300, .f32⟩
  | 16 => ⟨S_, .f32⟩
  | 17 => ⟨S64x300, .f32⟩
  | 18 => ⟨S64x300, .f32⟩
  | 19 => ⟨S64x300, .f32⟩
  | 20 => ⟨S_, .f32⟩
  | 21 => ⟨S64x300, .f32⟩
  | 22 => ⟨S64x300, .f32⟩
  | 23 => ⟨S64x300, .f32⟩
  | 24 => ⟨S_, .f32⟩
  | 25 => ⟨S64x300, .f32⟩
  | 26 => ⟨S64x300, .f32⟩
  | 27 => ⟨S64x300, .f32⟩
  | 28 => ⟨S64x1, .i32⟩
  | 29 => ⟨S64x1, .f32⟩
  | 30 => ⟨S64x1, .i32⟩
  | 31 => ⟨S64x1, .f32⟩
  | 32 => ⟨S64x300, .f32⟩
  | 33 => ⟨S64x300, .f32⟩
  | 34 => ⟨S_, .f32⟩
  | 35 => ⟨S64x300, .f32⟩
  | 36 => ⟨S64x300, .f32⟩
  | 37 => ⟨S64x300, .f32⟩
  | 38 => ⟨S64x300, .i32⟩
  | 39 => ⟨S64x300, .f32⟩
  | 40 => ⟨S64x300, .f32⟩
  | 41 => ⟨S_, .f32⟩
  | 42 => ⟨S64x300, .f32⟩
  | 43 => ⟨S64x300, .f32⟩
  | 44 => ⟨S64x300, .f32⟩
  | 45 => ⟨S64x300, .i32⟩
  | 46 => ⟨S64x300, .f32⟩
  | 47 => ⟨S64x300, .f32⟩
  | 48 => ⟨S_, .f32⟩
  | 49 => ⟨S64x300, .f32⟩
  | 50 => ⟨S64x300, .f32⟩
  | 51 => ⟨S64x300, .f32⟩
  | 52 => ⟨S64x300, .i32⟩
  | 53 => ⟨S64x300, .f32⟩
  | 54 => ⟨S64x300, .f32⟩
  | 55 => ⟨S_, .f32⟩
  | 56 => ⟨S64x300, .f32⟩
  | 57 => ⟨S64x300, .f32⟩
  | 58 => ⟨S64x300, .f32⟩
  | 59 => ⟨S64x300, .i32⟩
  | 60 => ⟨S_, .i32⟩
  | 61 => ⟨S64x300, .i32⟩
  | 62 => ⟨S64x300, .i32⟩
  | 63 => ⟨S_, .i32⟩
  | 64 => ⟨S64x300, .i32⟩
  | 65 => ⟨S64x300, .i32⟩
  | 66 => ⟨S64x300x1, .i32⟩
  | 67 => ⟨S64x300x1, .i32⟩
  | 68 => ⟨S64x300x1, .i32⟩
  | 69 => ⟨S64x300x1, .i32⟩
  | 70 => ⟨S64x300x4, .i32⟩
  | 71 => ⟨S64x300x1, .f32⟩
  | 72 => ⟨S64x300, .f32⟩
  | 73 => ⟨S64x300x1, .f32⟩
  | 74 => ⟨S64x300, .f32⟩
  | 75 => ⟨S64x300x1, .f32⟩
  | 76 => ⟨S64x300, .f32⟩
  | 77 => ⟨S64x300x1, .f32⟩
  | 78 => ⟨S64x300, .f32⟩
  | 79 => ⟨S_, .f32⟩
  | 80 => ⟨S64x300, .f32⟩
  | 81 => ⟨S64x300, .f32⟩
  | 82 => ⟨S64x300, .f32⟩
  | 83 => ⟨S_, .f32⟩
  | 84 => ⟨S64x300, .f32⟩
  | 85 => ⟨S64x300, .f32⟩
  | 86 => ⟨S64x300, .f32⟩
  | 87 => ⟨S_, .f32⟩
  | 88 => ⟨S64x300, .f32⟩
  | 89 => ⟨S64x300, .f32⟩
  | 90 => ⟨S64x300, .f32⟩
  | 91 => ⟨S_, .f32⟩
  | 92 => ⟨S64x300, .f32⟩
  | 93 => ⟨S64x300, .f32⟩
  | 94 => ⟨S64x300, .f32⟩
  | 95 => ⟨S64x1, .i32⟩
  | 96 => ⟨S64x1, .f32⟩
  | 97 => ⟨S64x1, .i32⟩
  | 98 => ⟨S64x1, .f32⟩
  | 99 => ⟨S64x300, .f32⟩
  | 100 => ⟨S64x300, .f32⟩
  | 101 => ⟨S_, .f32⟩
  | 102 => ⟨S64x300, .f32⟩
  | 103 => ⟨S64x300, .f32⟩
  | 104 => ⟨S64x300, .f32⟩
  | 105 => ⟨S64x300, .i32⟩
  | 106 => ⟨S64x300, .f32⟩
  | 107 => ⟨S64x300, .f32⟩
  | 108 => ⟨S_, .f32⟩
  | 109 => ⟨S64x300, .f32⟩
  | 110 => ⟨S64x300, .f32⟩
  | 111 => ⟨S64x300, .f32⟩
  | 112 => ⟨S64x300, .i32⟩
  | 113 => ⟨S64x300, .f32⟩
  | 114 => ⟨S64x300, .f32⟩
  | 115 => ⟨S_, .f32⟩
  | 116 => ⟨S64x300, .f32⟩
  | 117 => ⟨S64x300, .f32⟩
  | 118 => ⟨S64x300, .f32⟩
  | 119 => ⟨S64x300, .i32⟩
  | 120 => ⟨S64x300, .f32⟩
  | 121 => ⟨S64x300, .f32⟩
  | 122 => ⟨S_, .f32⟩
  | 123 => ⟨S64x300, .f32⟩
  | 124 => ⟨S64x300, .f32⟩
  | 125 => ⟨S64x300, .f32⟩
  | 126 => ⟨S64x300, .i32⟩
  | 127 => ⟨S_, .i32⟩
  | _ => ⟨S64x300x4, .f32⟩

abbrev hbmTy0_1 (i : Nat) : BufTy := match i % 128 with
  | 0 => ⟨S64x300, .i32⟩
  | 1 => ⟨S64x300, .i32⟩
  | 2 => ⟨S_, .i32⟩
  | 3 => ⟨S64x300, .i32⟩
  | 4 => ⟨S64x300, .i32⟩
  | 5 => ⟨S64x300x1, .i32⟩
  | 6 => ⟨S64x300x1, .i32⟩
  | 7 => ⟨S64x300x1, .i32⟩
  | 8 => ⟨S64x300x1, .i32⟩
  | 9 => ⟨S64x300x4, .i32⟩
  | 10 => ⟨S1x64x300x4, .i32⟩
  | 11 => ⟨S1x64x300x4, .i32⟩
  | 12 => ⟨S2x64x300x4, .i32⟩
  | 13 => ⟨S2x64x300x1600, .f32⟩
  | 14 => ⟨S2x64x300x40x40, .f32⟩
  | _ => ⟨S64x300x4, .f32⟩

abbrev hbmTy (i : Nat) : BufTy := match i / 128 with
  | 0 => hbmTy0_0 i
  | 1 => hbmTy0_1 i
  | _ => ⟨S64x300x4, .f32⟩

abbrev bufTy : (tb : Table) → Fin (tcTables nBuf tb) → BufTy
  | .hbm, ⟨i, _⟩ => hbmTy i
  | .local _ .vmem, ⟨0, _⟩ => ⟨S1x8x104x4, .i32⟩
  | .local _ .vmem, ⟨1, _⟩ => ⟨S1x8x104x4, .i32⟩
  | .local _ .vmem, ⟨2, _⟩ => ⟨S1x8x104x1600, .f32⟩
  | .local _ .vmem, ⟨3, _⟩ => ⟨S1x8x104x1600, .f32⟩
  | _, _ => ⟨S64x300x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_11 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_13 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_14 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_15 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_c_16 : Ref sig .tc := ⟨.hbm, 127, rfl⟩
abbrev main_v105 : Ref sig .tc := ⟨.hbm, 128, rfl⟩
abbrev main_v106 : Ref sig .tc := ⟨.hbm, 129, rfl⟩
abbrev main_c_17 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 8, 3], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x8x104x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x104x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  slices_S64x300x4_S64x300x1_0_0_0 : S64x300x4.Slices ![0, 0, 0] S64x300x1
  shapeCasts_S64x300x1_S64x300 : S64x300x1.ShapeCasts S64x300
  slices_S64x300x4_S64x300x1_0_0_1 : S64x300x4.Slices ![0, 0, 1] S64x300x1
  slices_S64x300x4_S64x300x1_0_0_2 : S64x300x4.Slices ![0, 0, 2] S64x300x1
  slices_S64x300x4_S64x300x1_0_0_3 : S64x300x4.Slices ![0, 0, 3] S64x300x1
  bcast_S_S64x300 : S_.BroadcastsInDim S64x300 (![] : Fin 0 → Fin S64x300.rank)
  slices_S64x2_S64x1_0_1 : S64x2.Slices ![0, 1] S64x1
  slices_S64x2_S64x1_0_0 : S64x2.Slices ![0, 0] S64x1
  bcast_S64x1_S64x300_0_1 : S64x1.BroadcastsInDim S64x300 (![0, 1] : Fin 2 → Fin S64x300.rank)
  bcast_S64x300_S64x300x1_0_1 : S64x300.BroadcastsInDim S64x300x1 (![0, 1] : Fin 2 → Fin S64x300x1.rank)
  concatenates_S64x300x1_S64x300x1_S64x300x1_S64x300x1_S64x300x4_d2 : Shape.Concatenates [S64x300x1, S64x300x1, S64x300x1, S64x300x1] S64x300x4 2
  bcast_S64x300x4_S1x64x300x4_1_2_3 : S64x300x4.BroadcastsInDim S1x64x300x4 (![1, 2, 3] : Fin 3 → Fin S1x64x300x4.rank)
  concatenates_S1x64x300x4_S1x64x300x4_S2x64x300x4_d0 : Shape.Concatenates [S1x64x300x4, S1x64x300x4] S2x64x300x4 0
  inb_S1x8x104x4_S1x8x104x4_0_0_0_0 : ∀ a, (![0, 0, 0, 0] : Fin 4 → Nat) a + S1x8x104x4.size a ≤ S1x8x104x4.size a
  h_S1x8x104x4 : 0 < S1x8x104x4.numel
  shapeCasts_S1x8x104x4_S8x104x4 : S1x8x104x4.ShapeCasts S8x104x4
  slices_S8x104x4_o0_0_0_S8x104x1 : S8x104x4.Slices ![0, 0, 0] S8x104x1
  slices_S8x104x4_o0_0_1_S8x104x1 : S8x104x4.Slices ![0, 0, 1] S8x104x1
  slices_S8x104x4_o0_0_2_S8x104x1 : S8x104x4.Slices ![0, 0, 2] S8x104x1
  slices_S8x104x4_o0_0_3_S8x104x1 : S8x104x4.Slices ![0, 0, 3] S8x104x1
  iota_S1x1x1600_d2_w32 : S1x1x1600.Iotas .tc 32 [2]
  natLt_1_32 : 1 < 32
  broadcasts_S1x1x1600_S8x104x1600 : S1x1x1600.Broadcasts S8x104x1600
  broadcasts_S8x104x1_S8x104x1600 : S8x104x1.Broadcasts S8x104x1600
  inb_S1x8x104x1600_S1x8x104x1600_0_0_0_0 : ∀ a, (![0, 0, 0, 0] : Fin 4 → Nat) a + S1x8x104x1600.size a ≤ S1x8x104x1600.size a
  h_S1x8x104x1600 : 0 < S1x8x104x1600.numel
  shapeCasts_S1x8x104x1600_S8x104x1600 : S1x8x104x1600.ShapeCasts S8x104x1600
  shapeCasts_S8x104x1600_S1x8x104x1600 : S8x104x1600.ShapeCasts S1x8x104x1600
  shapeCasts_S2x64x300x1600_S2x64x300x40x40 : S2x64x300x1600.ShapeCasts S2x64x300x40x40
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x8x104x4.size a < S2x64x300x4.size a
  hwx0_0 : ∀ i : grid0.Coords, EltTy.bits .i32 = 32 ∨ (Rect.unit (s := S2x64x300x4) (fun a => cc0_transform_0 i a * S1x8x104x4.size a) (fun a => (Pipeline.Clip.of (cc0_transform_0 i a) (S1x8x104x4.size a) (S2x64x300x4.size a)).extent (S1x8x104x4.size a)) fun a => Pipeline.Clip.inb (Pipeline.Clip.ok_of (hstart0_0 i a))).WholeWords (EltTy.packing .i32)
  hwxs0_0 : ∀ i : grid0.Coords, EltTy.bits .i32 = 32 ∨ (Rect.unit (s := S1x8x104x4) (fun _ => 0) (fun a => (Pipeline.Clip.of (cc0_transform_0 i a) (S1x8x104x4.size a) (S2x64x300x4.size a)).extent (S1x8x104x4.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x8x104x1600.size a < S2x64x300x1600.size a
  hwx0_1 : ∀ i : grid0.Coords, EltTy.bits .f32 = 32 ∨ (Rect.unit (s := S2x64x300x1600) (fun a => cc0_transform_1 i a * S1x8x104x1600.size a) (fun a => (Pipeline.Clip.of (cc0_transform_1 i a) (S1x8x104x1600.size a) (S2x64x300x1600.size a)).extent (S1x8x104x1600.size a)) fun a => Pipeline.Clip.inb (Pipeline.Clip.ok_of (hstart0_1 i a))).WholeWords (EltTy.packing .f32)
  hwxs0_1 : ∀ i : grid0.Coords, EltTy.bits .f32 = 32 ∨ (Rect.unit (s := S1x8x104x1600) (fun _ => 0) (fun a => (Pipeline.Clip.of (cc0_transform_1 i a) (S1x8x104x1600.size a) (S2x64x300x1600.size a)).extent (S1x8x104x1600.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_v116) S1x8x104x4.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v117) S1x8x104x1600.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x300x4 : Shape := ⟨3, ![64, 300, 4]⟩
abbrev S64x2 : Shape := ⟨2, ![64, 2]⟩
abbrev S64x40x40 : Shape := ⟨3, ![64, 40, 40]⟩
abbrev S64x300x1 : Shape := ⟨3, ![64, 300, 1]⟩
abbrev S64x300 : Shape := ⟨2, ![64, 300]⟩
abbrev S_ : Shape := ⟨0, ![]⟩
abbrev S64x1 : Shape := ⟨2, ![64, 1]⟩
abbrev S40 : Shape := ⟨1, ![40]⟩
abbrev S40x1 : Shape := ⟨2, ![40, 1]⟩
abbrev S1x40 : Shape := ⟨2, ![1, 40]⟩
abbrev S64x300x1x1 : Shape := ⟨4, ![64, 300, 1, 1]⟩
abbrev S1x1x40x1 : Shape := ⟨4, ![1, 1, 40, 1]⟩
abbrev S64x300x40x1 : Shape := ⟨4, ![64, 300, 40, 1]⟩
abbrev S1x1x1x40 : Shape := ⟨4, ![1, 1, 1, 40]⟩
abbrev S64x300x1x40 : Shape := ⟨4, ![64, 300, 1, 40]⟩
abbrev S64x300x40x40 : Shape := ⟨4, ![64, 300, 40, 40]⟩
abbrev S1x64x300x40x40 : Shape := ⟨5, ![1, 64, 300, 40, 40]⟩
abbrev S2x64x300x40x40 : Shape := ⟨5, ![2, 64, 300, 40, 40]⟩

abbrev nBuf : Space → Nat
  | .hbm => 192
  | .vmem => 0
  | .smem => 0
  | _ => 0

abbrev hbmTy0_0 (i : Nat) : BufTy := match i % 128 with
  | 0 => ⟨S64x300x4, .f32⟩
  | 1 => ⟨S64x300x4, .f32⟩
  | 2 => ⟨S64x2, .i32⟩
  | 3 => ⟨S64x40x40, .i1⟩
  | 4 => ⟨S64x300x1, .f32⟩
  | 5 => ⟨S64x300, .f32⟩
  | 6 => ⟨S64x300x1, .f32⟩
  | 7 => ⟨S64x300, .f32⟩
  | 8 => ⟨S64x300x1, .f32⟩
  | 9 => ⟨S64x300, .f32⟩
  | 10 => ⟨S64x300x1, .f32⟩
  | 11 => ⟨S64x300, .f32⟩
  | 12 => ⟨S_, .f32⟩
  | 13 => ⟨S64x300, .f32⟩
  | 14 => ⟨S64x300, .f32⟩
  | 15 => ⟨S64x300, .f32⟩
  | 16 => ⟨S_, .f32⟩
  | 17 => ⟨S64x300, .f32⟩
  | 18 => ⟨S64x300, .f32⟩
  | 19 => ⟨S64x300, .f32⟩
  | 20 => ⟨S_, .f32⟩
  | 21 => ⟨S64x300, .f32⟩
  | 22 => ⟨S64x300, .f32⟩
  | 23 => ⟨S64x300, .f32⟩
  | 24 => ⟨S_, .f32⟩
  | 25 => ⟨S64x300, .f32⟩
  | 26 => ⟨S64x300, .f32⟩
  | 27 => ⟨S64x300, .f32⟩
  | 28 => ⟨S64x1, .i32⟩
  | 29 => ⟨S64x1, .f32⟩
  | 30 => ⟨S64x1, .i32⟩
  | 31 => ⟨S64x1, .f32⟩
  | 32 => ⟨S64x300, .f32⟩
  | 33 => ⟨S64x300, .f32⟩
  | 34 => ⟨S_, .f32⟩
  | 35 => ⟨S64x300, .f32⟩
  | 36 => ⟨S64x300, .f32⟩
  | 37 => ⟨S64x300, .f32⟩
  | 38 => ⟨S64x300, .i32⟩
  | 39 => ⟨S64x300, .f32⟩
  | 40 => ⟨S64x300, .f32⟩
  | 41 => ⟨S_, .f32⟩
  | 42 => ⟨S64x300, .f32⟩
  | 43 => ⟨S64x300, .f32⟩
  | 44 => ⟨S64x300, .f32⟩
  | 45 => ⟨S64x300, .i32⟩
  | 46 => ⟨S64x300, .f32⟩
  | 47 => ⟨S64x300, .f32⟩
  | 48 => ⟨S_, .f32⟩
  | 49 => ⟨S64x300, .f32⟩
  | 50 => ⟨S64x300, .f32⟩
  | 51 => ⟨S64x300, .f32⟩
  | 52 => ⟨S64x300, .i32⟩
  | 53 => ⟨S64x300, .f32⟩
  | 54 => ⟨S64x300, .f32⟩
  | 55 => ⟨S_, .f32⟩
  | 56 => ⟨S64x300, .f32⟩
  | 57 => ⟨S64x300, .f32⟩
  | 58 => ⟨S64x300, .f32⟩
  | 59 => ⟨S64x300, .i32⟩
  | 60 => ⟨S_, .i32⟩
  | 61 => ⟨S64x300, .i32⟩
  | 62 => ⟨S64x300, .i32⟩
  | 63 => ⟨S_, .i32⟩
  | 64 => ⟨S64x300, .i32⟩
  | 65 => ⟨S64x300, .i32⟩
  | 66 => ⟨S40, .i32⟩
  | 67 => ⟨S40x1, .i32⟩
  | 68 => ⟨S40, .i32⟩
  | 69 => ⟨S1x40, .i32⟩
  | 70 => ⟨S64x300x1x1, .i32⟩
  | 71 => ⟨S1x1x40x1, .i32⟩
  | 72 => ⟨S64x300x40x1, .i32⟩
  | 73 => ⟨S64x300x40x1, .i32⟩
  | 74 => ⟨S64x300x40x1, .i1⟩
  | 75 => ⟨S64x300x1x1, .i32⟩
  | 76 => ⟨S1x1x40x1, .i32⟩
  | 77 => ⟨S64x300x40x1, .i32⟩
  | 78 => ⟨S64x300x40x1, .i32⟩
  | 79 => ⟨S64x300x40x1, .i1⟩
  | 80 => ⟨S64x300x40x1, .i1⟩
  | 81 => ⟨S64x300x1x1, .i32⟩
  | 82 => ⟨S1x1x1x40, .i32⟩
  | 83 => ⟨S64x300x1x40, .i32⟩
  | 84 => ⟨S64x300x1x40, .i32⟩
  | 85 => ⟨S64x300x1x40, .i1⟩
  | 86 => ⟨S64x300x40x40, .i1⟩
  | 87 => ⟨S64x300x40x40, .i1⟩
  | 88 => ⟨S64x300x40x40, .i1⟩
  | 89 => ⟨S64x300x1x1, .i32⟩
  | 90 => ⟨S1x1x1x40, .i32⟩
  | 91 => ⟨S64x300x1x40, .i32⟩
  | 92 => ⟨S64x300x1x40, .i32⟩
  | 93 => ⟨S64x300x1x40, .i1⟩
  | 94 => ⟨S64x300x40x40, .i1⟩
  | 95 => ⟨S64x300x40x40, .i1⟩
  | 96 => ⟨S64x300x1, .f32⟩
  | 97 => ⟨S64x300, .f32⟩
  | 98 => ⟨S64x300x1, .f32⟩
  | 99 => ⟨S64x300, .f32⟩
  | 100 => ⟨S64x300x1, .f32⟩
  | 101 => ⟨S64x300, .f32⟩
  | 102 => ⟨S64x300x1, .f32⟩
  | 103 => ⟨S64x300, .f32⟩
  | 104 => ⟨S_, .f32⟩
  | 105 => ⟨S64x300, .f32⟩
  | 106 => ⟨S64x300, .f32⟩
  | 107 => ⟨S64x300, .f32⟩
  | 108 => ⟨S_, .f32⟩
  | 109 => ⟨S64x300, .f32⟩
  | 110 => ⟨S64x300, .f32⟩
  | 111 => ⟨S64x300, .f32⟩
  | 112 => ⟨S_, .f32⟩
  | 113 => ⟨S64x300, .f32⟩
  | 114 => ⟨S64x300, .f32⟩
  | 115 => ⟨S64x300, .f32⟩
  | 116 => ⟨S_, .f32⟩
  | 117 => ⟨S64x300, .f32⟩
  | 118 => ⟨S64x300, .f32⟩
  | 119 => ⟨S64x300, .f32⟩
  | 120 => ⟨S64x1, .i32⟩
  | 121 => ⟨S64x1, .f32⟩
  | 122 => ⟨S64x1, .i32⟩
  | 123 => ⟨S64x1, .f32⟩
  | 124 => ⟨S64x300, .f32⟩
  | 125 => ⟨S64x300, .f32⟩
  | 126 => ⟨S_, .f32⟩
  | 127 => ⟨S64x300, .f32⟩
  | _ => ⟨S64x300x4, .f32⟩

abbrev hbmTy0_1 (i : Nat) : BufTy := match i % 128 with
  | 0 => ⟨S64x300, .f32⟩
  | 1 => ⟨S64x300, .f32⟩
  | 2 => ⟨S64x300, .i32⟩
  | 3 => ⟨S64x300, .f32⟩
  | 4 => ⟨S64x300, .f32⟩
  | 5 => ⟨S_, .f32⟩
  | 6 => ⟨S64x300, .f32⟩
  | 7 => ⟨S64x300, .f32⟩
  | 8 => ⟨S64x300, .f32⟩
  | 9 => ⟨S64x300, .i32⟩
  | 10 => ⟨S64x300, .f32⟩
  | 11 => ⟨S64x300, .f32⟩
  | 12 => ⟨S_, .f32⟩
  | 13 => ⟨S64x300, .f32⟩
  | 14 => ⟨S64x300, .f32⟩
  | 15 => ⟨S64x300, .f32⟩
  | 16 => ⟨S64x300, .i32⟩
  | 17 => ⟨S64x300, .f32⟩
  | 18 => ⟨S64x300, .f32⟩
  | 19 => ⟨S_, .f32⟩
  | 20 => ⟨S64x300, .f32⟩
  | 21 => ⟨S64x300, .f32⟩
  | 22 => ⟨S64x300, .f32⟩
  | 23 => ⟨S64x300, .i32⟩
  | 24 => ⟨S_, .i32⟩
  | 25 => ⟨S64x300, .i32⟩
  | 26 => ⟨S64x300, .i32⟩
  | 27 => ⟨S_, .i32⟩
  | 28 => ⟨S64x300, .i32⟩
  | 29 => ⟨S64x300, .i32⟩
  | 30 => ⟨S40, .i32⟩
  | 31 => ⟨S40x1, .i32⟩
  | 32 => ⟨S40, .i32⟩
  | 33 => ⟨S1x40, .i32⟩
  | 34 => ⟨S64x300x1x1, .i32⟩
  | 35 => ⟨S1x1x40x1, .i32⟩
  | 36 => ⟨S64x300x40x1, .i32⟩
  | 37 => ⟨S64x300x40x1, .i32⟩
  | 38 => ⟨S64x300x40x1, .i1⟩
  | 39 => ⟨S64x300x1x1, .i32⟩
  | 40 => ⟨S1x1x40x1, .i32⟩
  | 41 => ⟨S64x300x40x1, .i32⟩
  | 42 => ⟨S64x300x40x1, .i32⟩
  | 43 => ⟨S64x300x40x1, .i1⟩
  | 44 => ⟨S64x300x40x1, .i1⟩
  | 45 => ⟨S64x300x1x1, .i32⟩
  | 46 => ⟨S1x1x1x40, .i32⟩
  | 47 => ⟨S64x300x1x40, .i32⟩
  | 48 => ⟨S64x300x1x40, .i32⟩
  | 49 => ⟨S64x300x1x40, .i1⟩
  | 50 => ⟨S64x300x40x40, .i1⟩
  | 51 => ⟨S64x300x40x40, .i1⟩
  | 52 => ⟨S64x300x40x40, .i1⟩
  | 53 => ⟨S64x300x1x1, .i32⟩
  | 54 => ⟨S1x1x1x40, .i32⟩
  | 55 => ⟨S64x300x1x40, .i32⟩
  | 56 => ⟨S64x300x1x40, .i32⟩
  | 57 => ⟨S64x300x1x40, .i1⟩
  | 58 => ⟨S64x300x40x40, .i1⟩
  | 59 => ⟨S64x300x40x40, .i1⟩
  | 60 => ⟨S1x64x300x40x40, .i1⟩
  | 61 => ⟨S1x64x300x40x40, .i1⟩
  | 62 => ⟨S2x64x300x40x40, .i1⟩
  | 63 => ⟨S2x64x300x40x40, .f32⟩
  | _ => ⟨S64x300x4, .f32⟩

abbrev hbmTy (i : Nat) : BufTy := match i / 128 with
  | 0 => hbmTy0_0 i
  | 1 => hbmTy0_1 i
  | _ => ⟨S64x300x4, .f32⟩

abbrev bufTy : (tb : Table) → Fin (tcTables nBuf tb) → BufTy
  | .hbm, ⟨i, _⟩ => hbmTy i
  | _, _ => ⟨S64x300x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c : Ref sig .tc := ⟨.hbm, 60, rfl⟩
abbrev main_v48 : Ref sig .tc := ⟨.hbm, 61, rfl⟩
abbrev main_v49 : Ref sig .tc := ⟨.hbm, 62, rfl⟩
abbrev main_c_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_8 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_9 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_10 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_11 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_cst_12 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_13 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_14 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_15 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_c_16 : Ref sig .tc := ⟨.hbm, 152, rfl⟩
abbrev main_v130 : Ref sig .tc := ⟨.hbm, 153, rfl⟩
abbrev main_v131 : Ref sig .tc := ⟨.hbm, 154, rfl⟩
abbrev main_c_17 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩

abbrev nD : Nat := 1
abbrev τ : Topo := Topo.v7x

variable {F : FTy → Type} [FloatOps F]

class Facts₀ : Prop where
  slices_S64x300x4_S64x300x1_0_0_0 : S64x300x4.Slices ![0, 0, 0] S64x300x1
  shapeCasts_S64x300x1_S64x300 : S64x300x1.ShapeCasts S64x300
  slices_S64x300x4_S64x300x1_0_0_1 : S64x300x4.Slices ![0, 0, 1] S64x300x1
  slices_S64x300x4_S64x300x1_0_0_2 : S64x300x4.Slices ![0, 0, 2] S64x300x1
  slices_S64x300x4_S64x300x1_0_0_3 : S64x300x4.Slices ![0, 0, 3] S64x300x1
  bcast_S_S64x300 : S_.BroadcastsInDim S64x300 (![] : Fin 0 → Fin S64x300.rank)
  slices_S64x2_S64x1_0_1 : S64x2.Slices ![0, 1] S64x1
  slices_S64x2_S64x1_0_0 : S64x2.Slices ![0, 0] S64x1
  bcast_S64x1_S64x300_0_1 : S64x1.BroadcastsInDim S64x300 (![0, 1] : Fin 2 → Fin S64x300.rank)
  bcast_S40_S40x1_0 : S40.BroadcastsInDim S40x1 (![0] : Fin 1 → Fin S40x1.rank)
  bcast_S40_S1x40_1 : S40.BroadcastsInDim S1x40 (![1] : Fin 1 → Fin S1x40.rank)
  bcast_S64x300_S64x300x1x1_0_1 : S64x300.BroadcastsInDim S64x300x1x1 (![0, 1] : Fin 2 → Fin S64x300x1x1.rank)
  bcast_S40x1_S1x1x40x1_2_3 : S40x1.BroadcastsInDim S1x1x40x1 (![2, 3] : Fin 2 → Fin S1x1x40x1.rank)
  bcast_S1x1x40x1_S64x300x40x1_0_1_2_3 : S1x1x40x1.BroadcastsInDim S64x300x40x1 (![0, 1, 2, 3] : Fin 4 → Fin S64x300x40x1.rank)
  bcast_S64x300x1x1_S64x300x40x1_0_1_2_3 : S64x300x1x1.BroadcastsInDim S64x300x40x1 (![0, 1, 2, 3] : Fin 4 → Fin S64x300x40x1.rank)
  bcast_S1x40_S1x1x1x40_2_3 : S1x40.BroadcastsInDim S1x1x1x40 (![2, 3] : Fin 2 → Fin S1x1x1x40.rank)
  bcast_S1x1x1x40_S64x300x1x40_0_1_2_3 : S1x1x1x40.BroadcastsInDim S64x300x1x40 (![0, 1, 2, 3] : Fin 4 → Fin S64x300x1x40.rank)
  bcast_S64x300x1x1_S64x300x1x40_0_1_2_3 : S64x300x1x1.BroadcastsInDim S64x300x1x40 (![0, 1, 2, 3] : Fin 4 → Fin S64x300x1x40.rank)
  bcast_S64x300x40x1_S64x300x40x40_0_1_2_3 : S64x300x40x1.BroadcastsInDim S64x300x40x40 (![0, 1, 2, 3] : Fin 4 → Fin S64x300x40x40.rank)
  bcast_S64x300x1x40_S64x300x40x40_0_1_2_3 : S64x300x1x40.BroadcastsInDim S64x300x40x40 (![0, 1, 2, 3] : Fin 4 → Fin S64x300x40x40.rank)
  bcast_S64x300x40x40_S1x64x300x40x40_1_2_3_4 : S64x300x40x40.BroadcastsInDim S1x64x300x40x40 (![1, 2, 3, 4] : Fin 4 → Fin S1x64x300x40x40.rank)
  concatenates_S1x64x300x40x40_S1x64x300x40x40_S2x64x300x40x40_d0 : Shape.Concatenates [S1x64x300x40x40, S1x64x300x40x40] S2x64x300x40x40 0

variable [Facts₀]

class Facts : Prop extends Facts₀ where

variable [Facts]
-- ==== Proof.Kernel.Around.lean ====
/-
  The run of `Kernel`'s @main, at any float instance: the host operations that compute the integer boxes, the one
  pipelined region, and the reshape after it.

  The region walks a 2 × 8 × 3 grid. At point (r, bi, qi) it fetches the [1, 8, 104, 4] block of box words of branch
  r, images 8·bi … 8·bi + 7, queries 104·qi … 104·qi + 103, and writes back the [1, 8, 104, 1600] block of mask values
  of the same rows. 300 queries are not a multiple of 104: the third block of the query axis overhangs the arrays by
  12 rows, so both transfers are cut to the 92 rows inside — the staging rows past them hold words nothing names, and
  the body's result on them is never written back. The body computes each output row from the SAME row of its input
  block (`outBlk_apply`), which is why the rows inside the array do not depend on those unnamed words (`outBlk_congr`).
-/
import proofs.«101547_j12352325943704_2_alg».proof.Proof.Gen.Kernel.Launch
import proofs.«101547_j12352325943704_2_alg».proof.Proof.Gen.Kernel.Skeleton
import proofs.«101547_j12352325943704_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents run through the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the region's result array and a fresh buffer only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes neither of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

set_option maxHeartbeats 4000000 in

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the reshape after it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the reshape after it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the reshape after it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the reshape after it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The frame claim's post from a frame run's -/

/-- For any proof data whose arrays are the region-entry contents, a run to the library's frame post read at the four
    argument arrays (none is an array of the region: each bypasses it and is untouched by the reshape) is the frame
    claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

end Cert.Kernel.Hand

end
-- ==== Proof.BoxMask.lean ====
/-
  The mathematics both programs compute, stated once and over no program.

  Every query (branch r, image b, query q) carries an inclusive integer box: columns x1 … x2 and rows y1 … y2 of a
  40 × 40 feature map. The result marks, as the float 1, every cell (h, w) OUTSIDE the box — h < y1, or h > y2, or
  w < x1, or w > x2, the comparisons signed on 32-bit words — and as the float 0 every cell inside it.
  One program enumerates the cells as pairs (h, w); the other enumerates the 1600 flattened positions n = 40·h + w and
  recovers the row as the floored quotient n / 40 (a truncating division followed by the sign correction) and the column
  as n − 40·(n / 40). On 0 ≤ n < 1600 the two enumerations agree (`rowOf_eq`, `colOf_eq`).
-/
import Idealize.ShloMosaic.PureOps
import Idealize.ShloMosaic.PureOps.Ideal
import Idealize.ShloMosaic.Lib.ValueIdx

noncomputable section

namespace Cert.BoxMask

open Idealize.ShloMosaic Idealize.ShloMosaic.ValueIdx

/-- One bit: the cell in row `h`, column `w` lies outside the inclusive box of columns `x1 … x2` and rows
    `y1 … y2` (signed comparisons of 32-bit words, joined by or in this order). -/
def outside (x1 y1 x2 y2 h w : BitVec 32) : BitVec 1 :=
  IntOp.ori (IntOp.ori (IntOp.ori (IntOp.cmpi .slt h y1) (IntOp.cmpi .sgt h y2)) (IntOp.cmpi .slt w x1)) (IntOp.cmpi .sgt w x2)

/-- The shape of one bound array: one word per (image, query). -/
abbrev SB : Shape := ⟨2, ![64, 300]⟩
/-- The shape of the result: branch, image, query, row, column. -/
abbrev SOut : Shape := ⟨5, ![2, 64, 300, 40, 40]⟩

/-- The whole result as ONE function of the eight bound arrays `B r k` (branch `r`; `k` = 0, 1, 2, 3 for x1, y1, x2,
    y2): at (r, b, q, h, w) the outside-bit of cell (h, w) against query (b, q)'s box of branch r, as a float. -/
def mask (B : Fin 2 → Fin 4 → IVec SB 32) : FVec Ideal SOut .f32 := fun i =>
  FloatOps.uitofp (F := Ideal) .f32
    (outside (B (i 0) 0 (ix2 (i 1) (i 2))) (B (i 0) 1 (ix2 (i 1) (i 2))) (B (i 0) 2 (ix2 (i 1) (i 2))) (B (i 0) 3 (ix2 (i 1) (i 2)))
      (BitVec.ofNat 32 (i 3).val) (BitVec.ofNat 32 (i 4).val))

/-- The row of flattened position `n`, as the second program spells it: the truncating signed quotient by 40, less one
    when the signs of `n` and 40 differ and the remainder is not zero (the floored quotient). -/
def rowOf (n : BitVec 32) : BitVec 32 :=
  Scalar.select
    (IntOp.andi
      (IntOp.cmpi .ne
        (IntOp.subi ((IntOp.cmpi .sgt n 0#32).setWidth 32) ((IntOp.cmpi .slt n 0#32).setWidth 32))
        (Scalar.subi (Scalar.extui (Scalar.cmpi .sgt 40#32 0#32)) (Scalar.extui (Scalar.cmpi .slt 40#32 0#32))))
      (IntOp.cmpi .ne (IntOp.remsi .vector n 40#32) 0#32))
    (IntOp.subi (IntOp.divsi .vector n 40#32) 1#32)
    (IntOp.divsi .vector n 40#32)

/-- The column of flattened position `n`: `n` less 40 times its row. -/
def colOf (n : BitVec 32) : BitVec 32 := IntOp.subi n (IntOp.muli (rowOf n) 40#32)

set_option maxRecDepth 100000 in
/-- On the 1600 positions of a 40 × 40 map the row is n / 40 and the column n mod 40 (checked position by position). -/
theorem rowCol_eq : ∀ n : Fin 1600, rowOf (BitVec.ofNat 32 n.val) = BitVec.ofNat 32 (n.val / 40)
    ∧ colOf (BitVec.ofNat 32 n.val) = BitVec.ofNat 32 (n.val % 40) := by
  decide +kernel

/-- A one-bit word widened to 32 bits and read signed is the bit read unsigned: both 0 or 1. -/
theorem bit_toInt : ∀ c : BitVec 1, ((c.setWidth 32).toInt : ℝ) = (c.toNat : ℝ) := by
  intro c
  have : ∀ c : BitVec 1, (c.setWidth 32).toInt = (c.toNat : ℤ) := by decide
  rw [this c]; simp

/-- So at the exact instance converting the widened bit as a signed integer is converting the bit as an unsigned one. -/
theorem sitofp_bit (c : BitVec 1) :
    FloatOps.sitofp (F := Ideal) .f32 (c.setWidth 32) = FloatOps.uitofp (F := Ideal) .f32 c := by
  show ((((c.setWidth 32).toInt : ℝ)) : EReal) = (((c.toNat : ℝ)) : EReal)
  rw [bit_toInt]

end Cert.BoxMask

end
-- ==== Proof.BlockRead.lean ====
/-
  Reading one element of a block: the layout operations of the region's body at an index written by coordinates.
  A block of box words is [1, 8, 104, 4] (one branch, 8 images, 104 queries, the four bounds); a block of mask values is
  [1, 8, 104, 1600] (the same rows, the 1600 cells of the map). The body drops and restores the leading unit axis, takes
  the four bound columns as [8, 104, 1] slices, and broadcasts a column along the cells and the cell numbers along the
  rows. Each lemma says which element of its operand one element of the result is. No program is mentioned.
-/
import Idealize.ShloMosaic.PureOps
import Idealize.ShloMosaic.Lib.ValueIdx
import Idealize.ShloMosaic.Lib.ValueLayout
import Idealize.ShloMosaic.Lib.Pipeline.Value

noncomputable section

namespace Cert.BlockRead

open Idealize.ShloMosaic Idealize.ShloMosaic.ValueIdx

variable {α : Type}

abbrev SIn : Shape := ⟨4, ![1, 8, 104, 4]⟩
abbrev SIn3 : Shape := ⟨3, ![8, 104, 4]⟩
abbrev SCol : Shape := ⟨3, ![8, 104, 1]⟩
abbrev SRow : Shape := ⟨3, ![1, 1, 1600]⟩
abbrev SBlk3 : Shape := ⟨3, ![8, 104, 1600]⟩
abbrev SBlk : Shape := ⟨4, ![1, 8, 104, 1600]⟩

/-- Bound column `k` of a block, as an [8, 104, 1] slice: its entry for (image b, query q) is the block's (b, q, k). -/
theorem slice_col (k : Nat) (hk : k < 4) (X : SIn3.Idx → α) (h : SIn3.Slices ![0, 0, k] SCol) (b : Fin 8) (q : Fin 104) (z : Fin 1) :
    extractStridedSlice SCol ![0, 0, k] X h (ix3 b q z) = X (ix3 b q (⟨k, hk⟩ : Fin 4)) := by
  refine extractStridedSlice_apply _ X h _ _ fun a => ?_
  have hz : z.val = 0 := by omega
  match a with
  | ⟨0, _⟩ => show b.val = 0 + b.val; omega
  | ⟨1, _⟩ => show q.val = 0 + q.val; omega
  | ⟨2, _⟩ => show k = k + z.val; omega

/-- A column broadcast along the 1600 cells: every cell of row (b, q) reads the column's entry for (b, q). -/
theorem bcast_col (v : SCol.Idx → α) (h : SCol.Broadcasts SBlk3) (b : Fin 8) (q : Fin 104) (n : Fin 1600) :
    broadcastTo SBlk3 v h (ix3 b q n) = v (ix3 b q (0 : Fin 1)) := by
  refine broadcastTo_apply v h (ix3 b q n) (ix3 b q (0 : Fin 1)) fun ax => ?_
  match ax with
  | ⟨0, _⟩ => rfl
  | ⟨1, _⟩ => rfl
  | ⟨2, _⟩ => rfl

/-- The cell numbers broadcast along the rows: cell n of every row reads entry n. -/
theorem bcast_row (v : SRow.Idx → α) (h : SRow.Broadcasts SBlk3) (b : Fin 8) (q : Fin 104) (n : Fin 1600) :
    broadcastTo SBlk3 v h (ix3 b q n) = v (ix3 (0 : Fin 1) (0 : Fin 1) n) := by
  refine broadcastTo_apply v h (ix3 b q n) (ix3 (0 : Fin 1) (0 : Fin 1) n) fun ax => ?_
  match ax with
  | ⟨0, _⟩ => rfl
  | ⟨1, _⟩ => rfl
  | ⟨2, _⟩ => rfl

/-- The leading unit axis of a block of box words dropped. -/
theorem drop_unit (X : SIn.Idx → α) (h : SIn.ShapeCasts SIn3) (b : Fin 8) (q : Fin 104) (k : Fin 4) :
    shapeCast SIn3 X h (ix3 b q k) = X (ix4 (0 : Fin 1) b q k) :=
  shapeCast_1abc_abc_apply X h b q k

/-- The leading unit axis of a block of mask values restored. -/
theorem add_unit (Y : SBlk3.Idx → α) (h : SBlk3.ShapeCasts SBlk) (a : Fin 1) (b : Fin 8) (q : Fin 104) (n : Fin 1600) :
    shapeCast SBlk Y h (ix4 a b q n) = Y (ix3 b q n) :=
  shapeCast_abc_1abc_apply Y h a b q n

/-- Entry n of the cell-number vector. -/
theorem iota_cell (h : SRow.Iotas .tc 32 [2]) (n : Fin 1600) :
    iota .tc SRow 32 [2] h (ix3 (0 : Fin 1) (0 : Fin 1) n) = BitVec.ofNat 32 n.val :=
  iota_single_apply .tc SRow 32 2 h _

end Cert.BlockRead

end
-- ==== Proof.Kernel.Payload.lean ====
/-
  What the region's body stores, read one element at a time (at any float instance).

  The body loads its [1, 8, 104, 4] block of box words, and stores a [1, 8, 104, 1600] block: at (image b, query q,
  cell n) the float of the bit "cell n lies outside the box of row (b, q)", the cell's row and column recovered from n
  as the floored quotient and the remainder by 40. So one element of the result reads the four words of the SAME row
  of the input block and nothing else.
-/
import proofs.«101547_j12352325943704_2_alg».proof.Proof.Gen.Kernel.Skeleton
import proofs.«101547_j12352325943704_2_alg».proof.Proof.BoxMask
import proofs.«101547_j12352325943704_2_alg».proof.Proof.BlockRead
import Idealize.ShloMosaic.Lib.ValueIdx
import Idealize.ShloMosaic.Lib.Pipeline.Value

noncomputable section

namespace Cert.Kernel.Hand

open Cert.Kernel Cert.Kernel.Gen
open Idealize.ShloMosaic Idealize.ShloMosaic.ValueIdx

variable {F : FTy → Type} [FloatOps F]

/-- What the body stores, as a function of the block of box words it loaded. -/
def outBlk (x0 : Vec F S1x8x104x4 .i32) : Vec F S1x8x104x1600 .f32 := k0_pay1 (k0_pay3 x0) k0_pay5 (k0_pay6 x0)

/-- The block with its leading unit axis dropped. -/
theorem pay2_apply (x0 : Vec F S1x8x104x4 .i32) (b : Fin 8) (q : Fin 104) (k : Fin 4) :
    k0_pay2 x0 (ix3 b q k) = x0 (ix4 (0 : Fin 1) b q k) :=
  Cert.BlockRead.drop_unit x0 _ b q k

/-- Entry n of the body's cell-number vector. -/
theorem cell_iota (n : Fin 1600) :
    iota .tc S1x1x1600 32 [2] iota_S1x1x1600_d2_w32 (ix3 (0 : Fin 1) (0 : Fin 1) n) = BitVec.ofNat 32 n.val :=
  iota_single_apply .tc S1x1x1600 32 2 iota_S1x1x1600_d2_w32 _

/-- The row of cell n, as the body computes it: its row function at the cell's number. -/
theorem pay4_apply (n : Fin 1600) :
    (k0_pay4 : IVec S1x1x1600 32) (ix3 (0 : Fin 1) (0 : Fin 1) n) = Cert.BoxMask.rowOf (BitVec.ofNat 32 n.val) :=
  (show (k0_pay4 : IVec S1x1x1600 32) (ix3 (0 : Fin 1) (0 : Fin 1) n)
      = Cert.BoxMask.rowOf (iota .tc S1x1x1600 32 [2] iota_S1x1x1600_d2_w32 (ix3 (0 : Fin 1) (0 : Fin 1) n)) from rfl).trans
    (congrArg Cert.BoxMask.rowOf (cell_iota n))

/-- The column of cell n. -/
theorem pay5_apply (n : Fin 1600) :
    (k0_pay5 : IVec S1x1x1600 32) (ix3 (0 : Fin 1) (0 : Fin 1) n) = Cert.BoxMask.colOf (BitVec.ofNat 32 n.val) := by
  have e : (k0_pay5 : IVec S1x1x1600 32) (ix3 (0 : Fin 1) (0 : Fin 1) n)
      = IntOp.subi (iota .tc S1x1x1600 32 [2] iota_S1x1x1600_d2_w32 (ix3 (0 : Fin 1) (0 : Fin 1) n))
          (IntOp.muli ((k0_pay4 : IVec S1x1x1600 32) (ix3 (0 : Fin 1) (0 : Fin 1) n)) 40#32) := rfl
  rw [e, pay4_apply, cell_iota]; rfl

/-- The x2 column. -/
theorem pay3_apply (x0 : Vec F S1x8x104x4 .i32) (b : Fin 8) (q : Fin 104) (z : Fin 1) :
    k0_pay3 x0 (ix3 b q z) = x0 (ix4 (0 : Fin 1) b q (⟨2, by decide⟩ : Fin 4)) := by
  unfold k0_pay3
  simp only [Cert.BlockRead.slice_col 2 (by decide), pay2_apply]

/-- The first three comparisons, joined. -/
theorem pay6_apply (x0 : Vec F S1x8x104x4 .i32) (b : Fin 8) (q : Fin 104) (n : Fin 1600) :
    k0_pay6 x0 (ix3 b q n)
      = IntOp.ori (IntOp.ori
          (IntOp.cmpi .slt (Cert.BoxMask.rowOf (BitVec.ofNat 32 n.val)) (x0 (ix4 (0 : Fin 1) b q (⟨1, by decide⟩ : Fin 4))))
          (IntOp.cmpi .sgt (Cert.BoxMask.rowOf (BitVec.ofNat 32 n.val)) (x0 (ix4 (0 : Fin 1) b q (⟨3, by decide⟩ : Fin 4)))))
          (IntOp.cmpi .slt (Cert.BoxMask.colOf (BitVec.ofNat 32 n.val)) (x0 (ix4 (0 : Fin 1) b q (⟨0, by decide⟩ : Fin 4)))) := by
  unfold k0_pay6
  simp only [ori, cmpi, Cert.BlockRead.bcast_row, Cert.BlockRead.bcast_col, Cert.BlockRead.slice_col 0 (by decide),
    Cert.BlockRead.slice_col 1 (by decide), Cert.BlockRead.slice_col 3 (by decide), pay2_apply, pay4_apply, pay5_apply]

/-- ONE ELEMENT OF THE STORED BLOCK: the float of the outside-bit of cell n against the box in row (b, q) of the
    loaded block. -/
theorem outBlk_apply (x0 : Vec F S1x8x104x4 .i32) (a : Fin 1) (b : Fin 8) (q : Fin 104) (n : Fin 1600) :
    outBlk x0 (ix4 a b q n)
      = FloatOps.sitofp .f32 ((Cert.BoxMask.outside
          (x0 (ix4 (0 : Fin 1) b q (⟨0, by decide⟩ : Fin 4))) (x0 (ix4 (0 : Fin 1) b q (⟨1, by decide⟩ : Fin 4)))
          (x0 (ix4 (0 : Fin 1) b q (⟨2, by decide⟩ : Fin 4))) (x0 (ix4 (0 : Fin 1) b q (⟨3, by decide⟩ : Fin 4)))
          (Cert.BoxMask.rowOf (BitVec.ofNat 32 n.val)) (Cert.BoxMask.colOf (BitVec.ofNat 32 n.val))).setWidth 32) := by
  unfold outBlk k0_pay1 Cert.BoxMask.outside
  simp only [Cert.BlockRead.add_unit, sitofp, extui, ori, cmpi, Cert.BlockRead.bcast_row, Cert.BlockRead.bcast_col,
    pay3_apply, pay5_apply, pay6_apply]

/-- So two loaded blocks that agree on row (b, q) give the same stored row (b, q). -/
theorem outBlk_congr (x0 x0' : Vec F S1x8x104x4 .i32) (a : Fin 1) (b : Fin 8) (q : Fin 104) (n : Fin 1600)
    (h : ∀ k : Fin 4, x0 (ix4 (0 : Fin 1) b q k) = x0' (ix4 (0 : Fin 1) b q k)) :
    outBlk x0 (ix4 a b q n) = outBlk x0' (ix4 a b q n) := by
  rw [outBlk_apply, outBlk_apply, h, h, h, h]

end Cert.Kernel.Hand

end
-- ==== Proof.Kernel.Body.lean ====
/-
  The region's body as a triple: on whole staging buffers, the input's at any contents and the result's at anything, it
  leaves the input's as it was and the result's at its one store's payload, the function `outBlk` of what it loaded.
-/
import proofs.«101547_j12352325943704_2_alg».proof.Proof.Gen.Kernel.Launch
import proofs.«101547_j12352325943704_2_alg».proof.Proof.Gen.Kernel.Skeleton
import proofs.«101547_j12352325943704_2_alg».proof.Proof.Gen.Kernel.Points
import proofs.«101547_j12352325943704_2_alg».proof.Proof.Kernel.Payload
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body -/

abbrev r0 : Rect S1x8x104x4 := Rect.unit (s := S1x8x104x4) ![0, 0, 0, 0] S1x8x104x4.size inb_S1x8x104x4_S1x8x104x4_0_0_0_0
abbrev r1 : Rect S1x8x104x1600 := Rect.unit (s := S1x8x104x1600) ![0, 0, 0, 0] S1x8x104x1600.size inb_S1x8x104x1600_S1x8x104x1600_0_0_0_0

theorem hz4 : (![0, 0, 0, 0] : Fin 4 → Nat) = fun _ => 0 := funext fun a => by fin_cases a <;> rfl

/-- The result window's staging buffer after the body: its one store, through the whole buffer, of `outBlk` of what the
    one load, through the whole input buffer, read. -/
def out0_1 (x0 : Vec F S1x8x104x4 .i32) : Vec F S1x8x104x1600 .f32 := View.canon [⟨r1, outBlk (View.ld x0 r0)⟩]

theorem out0_1_eq (x0 : Vec F S1x8x104x4 .i32) : out0_1 x0 = outBlk x0 := by
  unfold out0_1; rw [View.canon_unit_zero hz4, View.ld_unit_zero hz4]

/-- The one store covers the buffer. -/
theorem cover0_1 (p0 : Vec F S1x8x104x1600 .f32) (y : S1x8x104x1600.Idx) :
    ∃ pc ∈ ([⟨r1, p0⟩] : List (View.Piece (Elt F) S1x8x104x1600 .f32)), y ∈ pc.1.set :=
  ⟨_, List.mem_singleton_self _, View.mem_set_unit_zero hz4 inb_S1x8x104x1600_S1x8x104x1600_0_0_0_0 y⟩

set_option maxHeartbeats 1000000 in
/-- The body on whole staging memrefs, the input's at contents `x0` and the result's at anything, runs to the continuation
    holding the input's as it was and the result's at `out0_1 x0`. -/
theorem sound_kernel (c : Dev nD) (E : Set ℕ) (i : grid0.Coords) (arg3 : Memref sig .tc .vmem S1x8x104x4 .i32) (harg3 : arg3.IsWhole)
    (arg4 : Memref sig .tc .vmem S1x8x104x1600 .f32) (harg4 : arg4.IsWhole)
    (x0 : Vec F S1x8x104x4 .i32) (K : PUnit → sProp 𝕄) :
    iprop(owns (c : Thread nD τ) arg3 fullShare x0 ∗ (∃ d, owns (c : Thread nD τ) arg4 fullShare d)
        ∗ (iprop(owns (c : Thread nD τ) arg3 fullShare x0 ∗ owns (c : Thread nD τ) arg4 fullShare (out0_1 x0)) -∗ K ⟨⟩))
      ⊢ wp frame (wpE (defs₀ (F := F)) Variants.none c none) E (cc0__mask_kernel i arg3 harg3 arg4 harg4) K := by
  simp only [cc0__mask_kernel_eq_skeleton]; unfold cc0__mask_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

end Cert.Kernel.Hand

end
-- ==== Proof.Kernel.Data.lean ====
/-
  The proof data of the region: what each window's staging buffer holds after the body at each point, what the body
  finds there, and why the rows of a cut block past the array's end do not matter (`cut_out_congr`).
-/
import proofs.«101547_j12352325943704_2_alg».proof.Proof.Kernel.Around
import proofs.«101547_j12352325943704_2_alg».proof.Proof.Kernel.Body
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The proof data -/

/-- Window `w`'s block at point `t`, read off its array as the region finds it: the rows inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The word the proof writes on the rows of a cut block that lie past the array's end (nothing of the result inside
    the array reads it). -/
abbrev pad : S1x8x104x4.Idx → Elt F .i32 := fun _ => (0#32 : BitVec 32)

/-- The input window's staging buffer at point `t`, its block filled out with `pad`. -/
def inFull (c : Dev nD) (t : Fin cfg0.N) : Vec F S1x8x104x4 .i32 := win0_0.fill (grid0.coords t) pad (iblk m c 0 t)

/-- The proof data of the region on core `c`: the arrays as the region finds them; after the body at point `t` the input's
    buffer at its block and the result's at the body's function of it; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inFull m c t
    | ⟨1, _⟩ => out0_1 (inFull m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = inFull m c t := by dsimp only [dats]
theorem after0_1 (c : Dev nD) (t : Fin cfg0.N) : (dats m 0 c).after 1 t = out0_1 (inFull m c t) := by dsimp only [dats]

/-- The body finds the input's buffer just fetched: the block on the rows inside the array, `d` elsewhere; -/
theorem before0_0 (c : Dev nD) (t : Fin cfg0.N) (d) :
    (dats m 0 c).before 0 t d = win0_0.fill (grid0.coords t) d (iblk m c 0 t) := by
  unfold Dat.before; rw [if_pos (fetch0_0 t)]; rfl
/-- and the result's at contents nothing names (every point writes it back). -/
theorem before0_1 (c : Dev nD) (t : Fin cfg0.N) (d) : (dats m 0 c).before 1 t d = d :=
  (dats m 0 c).before_out_reset 1 rfl t (by
    by_cases h : t.val = 0
    · exact .inl h
    · exact .inr ⟨h, flush0_1 _⟩) d

/-- The cuts: only the query axis is ever cut, and the two windows are cut alike. -/
theorem cut_facts : ∀ t : Fin grid0.N,
    win0_0.xsize (grid0.coords t) 0 = 1 ∧ win0_0.xsize (grid0.coords t) 1 = 8 ∧ win0_0.xsize (grid0.coords t) 3 = 4
    ∧ win0_1.xsize (grid0.coords t) 0 = 1 ∧ win0_1.xsize (grid0.coords t) 1 = 8 ∧ win0_1.xsize (grid0.coords t) 3 = 1600
    ∧ win0_0.xsize (grid0.coords t) 2 = win0_1.xsize (grid0.coords t) 2 := by decide +kernel

/-- A row of the input block inside the array is read through the fill, whatever fills the rest. -/
theorem fill_inside (t : Fin cfg0.N) (d : S1x8x104x4.Idx → Elt F .i32) (g : (win0_0.xblock (grid0.coords t)).Idx → Elt F .i32)
    (b : Fin 8) (q : Fin 104) (k : Fin 4) (hq : q.val < win0_0.xsize (grid0.coords t) 2) :
    ∃ hm : win0_0.moved (grid0.coords t) (ix4 (0 : Fin 1) b q k) = true,
      win0_0.fill (grid0.coords t) d g (ix4 (0 : Fin 1) b q k)
        = g fun a => ⟨((ix4 (0 : Fin 1) b q k : S1x8x104x4.Idx) a).val, (win0_0.moved_iff (grid0.coords t) _).mp hm a⟩ := by
  obtain ⟨h0, h1, h3, -, -, -, -⟩ := cut_facts t
  have hm : win0_0.moved (grid0.coords t) (ix4 (0 : Fin 1) b q k) = true := by
    rw [Window.moved_iff]
    intro a
    match a with
    | ⟨0, _⟩ => show (0 : Nat) < win0_0.xsize (grid0.coords t) 0; rw [h0]; exact Nat.zero_lt_one
    | ⟨1, _⟩ => show b.val < win0_0.xsize (grid0.coords t) 1; rw [h1]; exact b.isLt
    | ⟨2, _⟩ => exact hq
    | ⟨3, _⟩ => show k.val < win0_0.xsize (grid0.coords t) 3; rw [h3]; exact k.isLt
  refine ⟨hm, ?_⟩
  unfold Window.fill; rw [dif_pos hm]

set_option maxHeartbeats 1000000 in
/-- The rows of the result block inside the array do not depend on what fills the input block past the array's end. -/
theorem cut_out_congr (t : Fin cfg0.N) (d d' : S1x8x104x4.Idx → Elt F .i32) (g : (win0_0.xblock (grid0.coords t)).Idx → Elt F .i32) :
    win0_1.cut (grid0.coords t) (out0_1 (win0_0.fill (grid0.coords t) d g))
      = win0_1.cut (grid0.coords t) (out0_1 (win0_0.fill (grid0.coords t) d' g)) := by
  funext y
  obtain ⟨-, -, -, h0, h1, h3, h2⟩ := cut_facts t
  have y0 : (y 0).val < 1 := h0 ▸ (y 0).isLt
  have y1 : (y 1).val < 8 := h1 ▸ (y 1).isLt
  have y2 : (y 2).val < 104 := Nat.lt_of_lt_of_le (y 2).isLt (win0_1.xsize_le (grid0.coords t) 2)
  have y2i : (y 2).val < win0_0.xsize (grid0.coords t) 2 := h2.symm ▸ (y 2).isLt
  have y3 : (y 3).val < 1600 := h3 ▸ (y 3).isLt
  have e : (win0_1.xinj (grid0.coords t) y : S1x8x104x1600.Idx)
      = ix4 (⟨(y 0).val, y0⟩ : Fin 1) (⟨(y 1).val, y1⟩ : Fin 8) (⟨(y 2).val, y2⟩ : Fin 104) (⟨(y 3).val, y3⟩ : Fin 1600) := by
    funext a; match a with | ⟨0, _⟩ => rfl | ⟨1, _⟩ => rfl | ⟨2, _⟩ => rfl | ⟨3, _⟩ => rfl
  show out0_1 _ (win0_1.xinj (grid0.coords t) y) = out0_1 _ (win0_1.xinj (grid0.coords t) y)
  rw [out0_1_eq, out0_1_eq, e]
  refine outBlk_congr _ _ _ _ _ _ fun k => ?_
  obtain ⟨hm, e1⟩ := fill_inside t d g ⟨(y 1).val, y1⟩ ⟨(y 2).val, y2⟩ k y2i
  obtain ⟨hm', e2⟩ := fill_inside t d' g ⟨(y 1).val, y1⟩ ⟨(y 2).val, y2⟩ k y2i
  rw [e1, e2]

end Cert.Kernel.Hand

end
-- ==== Proof.Kernel.Frame.lean ====
/-
  The body obligation at every point, the run of @main by the library's launch theorem, and the frame.
-/
import proofs.«101547_j12352325943704_2_alg».proof.Proof.Kernel.Data
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation -/

/-- What the body is called with at point `t`: the invariant, nothing owed, and each window's current staging buffer at
    what the body finds there; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: each buffer stated on the rows inside the array only (both windows are cut at the last block of
    the query axis), anything past them. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t)))))

set_option maxHeartbeats 1000000 in
/-- The body at any point: the input's buffer arrives holding its block filled out with some `d0`, the result's holding
    anything; the body leaves the input's as it was and the result's at `out0_1` of it, whose rows inside the array are
    those of `out0_1 (inFull …)` (`cut_out_congr`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  have hx : win0_0.cut (grid0.coords t) (inFull m c t) = iblk m c 0 t := win0_0.cut_fill _ _ _
  iintro ⟨HΦ, Ho, ⟨%d0, H0⟩, ⟨%d1, H1⟩⟩
  have hy : win0_1.fill (grid0.coords t) (out0_1 (win0_0.fill (grid0.coords t) d0 (iblk m c 0 t)))
        (win0_1.cut (grid0.coords t) (out0_1 (inFull m c t)))
      = out0_1 (win0_0.fill (grid0.coords t) d0 (iblk m c 0 t)) :=
    win0_1.fill_congr_cut (grid0.coords t) (cut_out_congr t d0 pad (iblk m c 0 t))
  iapply (sound_kernel (F := F) c Set.univ (grid0.coords t) _ _ _ _ (win0_0.fill (grid0.coords t) d0 (iblk m c 0 t)) _)
  isplitl [H0]; · iexact H0
  isplitl [H1]; · iexists d1; iexact H1
  iintro ⟨H0, H1⟩
  isplitl [HΦ]; · iexact HΦ
  isplitl [Ho]; · iexact Ho
  isplitl [H0]
  · iexists d0; rw [hx]; try iexact H0
  · iexists out0_1 (win0_0.fill (grid0.coords t) d0 (iblk m c 0 t)); rw [hy]; try iexact H1

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, every array of the region ends at what the library computes from the proof data, and every other
    unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: @main terminates, faults nowhere and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Hand

end
-- ==== Proof.KernelIdeal.Around.lean ====
/-
  The run of `KernelIdeal`'s @main, at any float instance: the host operations that compute the integer boxes, the one
  pipelined region, and the reshape after it.

  The region walks a 2 × 8 × 3 grid. At point (r, bi, qi) it fetches the [1, 8, 104, 4] block of box words of branch
  r, images 8·bi … 8·bi + 7, queries 104·qi … 104·qi + 103, and writes back the [1, 8, 104, 1600] block of mask values
  of the same rows. 300 queries are not a multiple of 104: the third block of the query axis overhangs the arrays by
  12 rows, so both transfers are cut to the 92 rows inside — the staging rows past them hold words nothing names, and
  the body's result on them is never written back. The body computes each output row from the SAME row of its input
  block (`outBlk_apply`), which is why the rows inside the array do not depend on those unnamed words (`outBlk_congr`).
-/
import proofs.«101547_j12352325943704_2_alg».proof.Proof.Gen.KernelIdeal.Launch
import proofs.«101547_j12352325943704_2_alg».proof.Proof.Gen.KernelIdeal.Skeleton
import proofs.«101547_j12352325943704_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents run through the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the region's result array and a fresh buffer only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes neither of the region's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

set_option maxHeartbeats 4000000 in

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the reshape after it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the reshape after it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the reshape after it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 4000000 in

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- Nor does the reshape after it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The frame claim's post from a frame run's -/

/-- For any proof data whose arrays are the region-entry contents, a run to the library's frame post read at the four
    argument arrays (none is an array of the region: each bypasses it and is untouched by the reshape) is the frame
    claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

end Cert.KernelIdeal.Hand

end
-- ==== Proof.KernelIdeal.Payload.lean ====
/-
  What the region's body stores, read one element at a time (at any float instance).

  The body loads its [1, 8, 104, 4] block of box words, and stores a [1, 8, 104, 1600] block: at (image b, query q,
  cell n) the float of the bit "cell n lies outside the box of row (b, q)", the cell's row and column recovered from n
  as the floored quotient and the remainder by 40. So one element of the result reads the four words of the SAME row
  of the input block and nothing else.
-/
import proofs.«101547_j12352325943704_2_alg».proof.Proof.Gen.KernelIdeal.Skeleton
import proofs.«101547_j12352325943704_2_alg».proof.Proof.BoxMask
import proofs.«101547_j12352325943704_2_alg».proof.Proof.BlockRead
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

variable {F : FTy → Type} [FloatOps F]

/-- What the body stores, as a function of the block of box words it loaded. -/
def outBlk (x0 : Vec F S1x8x104x4 .i32) : Vec F S1x8x104x1600 .f32 := k0_pay1 (k0_pay3 x0) k0_pay5 (k0_pay6 x0)

/-- The block with its leading unit axis dropped. -/
theorem pay2_apply (x0 : Vec F S1x8x104x4 .i32) (b : Fin 8) (q : Fin 104) (k : Fin 4) :
    k0_pay2 x0 (ix3 b q k) = x0 (ix4 (0 : Fin 1) b q k) :=
  Cert.BlockRead.drop_unit x0 _ b q k

/-- Entry n of the body's cell-number vector. -/
theorem cell_iota (n : Fin 1600) :
    iota .tc S1x1x1600 32 [2] iota_S1x1x1600_d2_w32 (ix3 (0 : Fin 1) (0 : Fin 1) n) = BitVec.ofNat 32 n.val :=
  iota_single_apply .tc S1x1x1600 32 2 iota_S1x1x1600_d2_w32 _

/-- The row of cell n, as the body computes it: its row function at the cell's number. -/
theorem pay4_apply (n : Fin 1600) :
    (k0_pay4 : IVec S1x1x1600 32) (ix3 (0 : Fin 1) (0 : Fin 1) n) = Cert.BoxMask.rowOf (BitVec.ofNat 32 n.val) :=
  (show (k0_pay4 : IVec S1x1x1600 32) (ix3 (0 : Fin 1) (0 : Fin 1) n)
      = Cert.BoxMask.rowOf (iota .tc S1x1x1600 32 [2] iota_S1x1x1600_d2_w32 (ix3 (0 : Fin 1) (0 : Fin 1) n)) from rfl).trans
    (congrArg Cert.BoxMask.rowOf (cell_iota n))

/-- The column of cell n. -/
theorem pay5_apply (n : Fin 1600) :
    (k0_pay5 : IVec S1x1x1600 32) (ix3 (0 : Fin 1) (0 : Fin 1) n) = Cert.BoxMask.colOf (BitVec.ofNat 32 n.val) := by
  have e : (k0_pay5 : IVec S1x1x1600 32) (ix3 (0 : Fin 1) (0 : Fin 1) n)
      = IntOp.subi (iota .tc S1x1x1600 32 [2] iota_S1x1x1600_d2_w32 (ix3 (0 : Fin 1) (0 : Fin 1) n))
          (IntOp.muli ((k0_pay4 : IVec S1x1x1600 32) (ix3 (0 : Fin 1) (0 : Fin 1) n)) 40#32) := rfl
  rw [e, pay4_apply, cell_iota]; rfl

/-- The x2 column. -/
theorem pay3_apply (x0 : Vec F S1x8x104x4 .i32) (b : Fin 8) (q : Fin 104) (z : Fin 1) :
    k0_pay3 x0 (ix3 b q z) = x0 (ix4 (0 : Fin 1) b q (⟨2, by decide⟩ : Fin 4)) := by
  unfold k0_pay3
  simp only [Cert.BlockRead.slice_col 2 (by decide), pay2_apply]

/-- The first three comparisons, joined. -/
theorem pay6_apply (x0 : Vec F S1x8x104x4 .i32) (b : Fin 8) (q : Fin 104) (n : Fin 1600) :
    k0_pay6 x0 (ix3 b q n)
      = IntOp.ori (IntOp.ori
          (IntOp.cmpi .slt (Cert.BoxMask.rowOf (BitVec.ofNat 32 n.val)) (x0 (ix4 (0 : Fin 1) b q (⟨1, by decide⟩ : Fin 4))))
          (IntOp.cmpi .sgt (Cert.BoxMask.rowOf (BitVec.ofNat 32 n.val)) (x0 (ix4 (0 : Fin 1) b q (⟨3, by decide⟩ : Fin 4)))))
          (IntOp.cmpi .slt (Cert.BoxMask.colOf (BitVec.ofNat 32 n.val)) (x0 (ix4 (0 : Fin 1) b q (⟨0, by decide⟩ : Fin 4)))) := by
  unfold k0_pay6
  simp only [ori, cmpi, Cert.BlockRead.bcast_row, Cert.BlockRead.bcast_col, Cert.BlockRead.slice_col 0 (by decide),
    Cert.BlockRead.slice_col 1 (by decide), Cert.BlockRead.slice_col 3 (by decide), pay2_apply, pay4_apply, pay5_apply]

/-- ONE ELEMENT OF THE STORED BLOCK: the float of the outside-bit of cell n against the box in row (b, q) of the
    loaded block. -/
theorem outBlk_apply (x0 : Vec F S1x8x104x4 .i32) (a : Fin 1) (b : Fin 8) (q : Fin 104) (n : Fin 1600) :
    outBlk x0 (ix4 a b q n)
      = FloatOps.sitofp .f32 ((Cert.BoxMask.outside
          (x0 (ix4 (0 : Fin 1) b q (⟨0, by decide⟩ : Fin 4))) (x0 (ix4 (0 : Fin 1) b q (⟨1, by decide⟩ : Fin 4)))
          (x0 (ix4 (0 : Fin 1) b q (⟨2, by decide⟩ : Fin 4))) (x0 (ix4 (0 : Fin 1) b q (⟨3, by decide⟩ : Fin 4)))
          (Cert.BoxMask.rowOf (BitVec.ofNat 32 n.val)) (Cert.BoxMask.colOf (BitVec.ofNat 32 n.val))).setWidth 32) := by
  unfold outBlk k0_pay1 Cert.BoxMask.outside
  simp only [Cert.BlockRead.add_unit, sitofp, extui, ori, cmpi, Cert.BlockRead.bcast_row, Cert.BlockRead.bcast_col,
    pay3_apply, pay5_apply, pay6_apply]

/-- So two loaded blocks that agree on row (b, q) give the same stored row (b, q). -/
theorem outBlk_congr (x0 x0' : Vec F S1x8x104x4 .i32) (a : Fin 1) (b : Fin 8) (q : Fin 104) (n : Fin 1600)
    (h : ∀ k : Fin 4, x0 (ix4 (0 : Fin 1) b q k) = x0' (ix4 (0 : Fin 1) b q k)) :
    outBlk x0 (ix4 a b q n) = outBlk x0' (ix4 a b q n) := by
  rw [outBlk_apply, outBlk_apply, h, h, h, h]

end Cert.KernelIdeal.Hand

end
-- ==== Proof.KernelIdeal.Body.lean ====
/-
  The region's body as a triple: on whole staging buffers, the input's at any contents and the result's at anything, it
  leaves the input's as it was and the result's at its one store's payload, the function `outBlk` of what it loaded.
-/
import proofs.«101547_j12352325943704_2_alg».proof.Proof.Gen.KernelIdeal.Launch
import proofs.«101547_j12352325943704_2_alg».proof.Proof.Gen.KernelIdeal.Skeleton
import proofs.«101547_j12352325943704_2_alg».proof.Proof.Gen.KernelIdeal.Points
import proofs.«101547_j12352325943704_2_alg».proof.Proof.KernelIdeal.Payload
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body -/

abbrev r0 : Rect S1x8x104x4 := Rect.unit (s := S1x8x104x4) ![0, 0, 0, 0] S1x8x104x4.size inb_S1x8x104x4_S1x8x104x4_0_0_0_0
abbrev r1 : Rect S1x8x104x1600 := Rect.unit (s := S1x8x104x1600) ![0, 0, 0, 0] S1x8x104x1600.size inb_S1x8x104x1600_S1x8x104x1600_0_0_0_0

theorem hz4 : (![0, 0, 0, 0] : Fin 4 → Nat) = fun _ => 0 := funext fun a => by fin_cases a <;> rfl

/-- The result window's staging buffer after the body: its one store, through the whole buffer, of `outBlk` of what the
    one load, through the whole input buffer, read. -/
def out0_1 (x0 : Vec F S1x8x104x4 .i32) : Vec F S1x8x104x1600 .f32 := View.canon [⟨r1, outBlk (View.ld x0 r0)⟩]

theorem out0_1_eq (x0 : Vec F S1x8x104x4 .i32) : out0_1 x0 = outBlk x0 := by
  unfold out0_1; rw [View.canon_unit_zero hz4, View.ld_unit_zero hz4]

/-- The one store covers the buffer. -/
theorem cover0_1 (p0 : Vec F S1x8x104x1600 .f32) (y : S1x8x104x1600.Idx) :
    ∃ pc ∈ ([⟨r1, p0⟩] : List (View.Piece (Elt F) S1x8x104x1600 .f32)), y ∈ pc.1.set :=
  ⟨_, List.mem_singleton_self _, View.mem_set_unit_zero hz4 inb_S1x8x104x1600_S1x8x104x1600_0_0_0_0 y⟩

set_option maxHeartbeats 1000000 in
/-- The body on whole staging memrefs, the input's at contents `x0` and the result's at anything, runs to the continuation
    holding the input's as it was and the result's at `out0_1 x0`. -/
theorem sound_kernel (c : Dev nD) (E : Set ℕ) (i : grid0.Coords) (arg3 : Memref sig .tc .vmem S1x8x104x4 .i32) (harg3 : arg3.IsWhole)
    (arg4 : Memref sig .tc .vmem S1x8x104x1600 .f32) (harg4 : arg4.IsWhole)
    (x0 : Vec F S1x8x104x4 .i32) (K : PUnit → sProp 𝕄) :
    iprop(owns (c : Thread nD τ) arg3 fullShare x0 ∗ (∃ d, owns (c : Thread nD τ) arg4 fullShare d)
        ∗ (iprop(owns (c : Thread nD τ) arg3 fullShare x0 ∗ owns (c : Thread nD τ) arg4 fullShare (out0_1 x0)) -∗ K ⟨⟩))
      ⊢ wp frame (wpE (defs₀ (F := F)) Variants.none c none) E (cc0__mask_kernel i arg3 harg3 arg4 harg4) K := by
  simp only [cc0__mask_kernel_eq_skeleton]; unfold cc0__mask_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

end Cert.KernelIdeal.Hand

end
-- ==== Proof.KernelIdeal.Data.lean ====
/-
  The proof data of the region: what each window's staging buffer holds after the body at each point, what the body
  finds there, and why the rows of a cut block past the array's end do not matter (`cut_out_congr`).
-/
import proofs.«101547_j12352325943704_2_alg».proof.Proof.KernelIdeal.Around
import proofs.«101547_j12352325943704_2_alg».proof.Proof.KernelIdeal.Body
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The proof data -/

/-- Window `w`'s block at point `t`, read off its array as the region finds it: the rows inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The word the proof writes on the rows of a cut block that lie past the array's end (nothing of the result inside
    the array reads it). -/
abbrev pad : S1x8x104x4.Idx → Elt F .i32 := fun _ => (0#32 : BitVec 32)

/-- The input window's staging buffer at point `t`, its block filled out with `pad`. -/
def inFull (c : Dev nD) (t : Fin cfg0.N) : Vec F S1x8x104x4 .i32 := win0_0.fill (grid0.coords t) pad (iblk m c 0 t)

/-- The proof data of the region on core `c`: the arrays as the region finds them; after the body at point `t` the input's
    buffer at its block and the result's at the body's function of it; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => inFull m c t
    | ⟨1, _⟩ => out0_1 (inFull m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = inFull m c t := by dsimp only [dats]
theorem after0_1 (c : Dev nD) (t : Fin cfg0.N) : (dats m 0 c).after 1 t = out0_1 (inFull m c t) := by dsimp only [dats]

/-- The body finds the input's buffer just fetched: the block on the rows inside the array, `d` elsewhere; -/
theorem before0_0 (c : Dev nD) (t : Fin cfg0.N) (d) :
    (dats m 0 c).before 0 t d = win0_0.fill (grid0.coords t) d (iblk m c 0 t) := by
  unfold Dat.before; rw [if_pos (fetch0_0 t)]; rfl
/-- and the result's at contents nothing names (every point writes it back). -/
theorem before0_1 (c : Dev nD) (t : Fin cfg0.N) (d) : (dats m 0 c).before 1 t d = d :=
  (dats m 0 c).before_out_reset 1 rfl t (by
    by_cases h : t.val = 0
    · exact .inl h
    · exact .inr ⟨h, flush0_1 _⟩) d

/-- The cuts: only the query axis is ever cut, and the two windows are cut alike. -/
theorem cut_facts : ∀ t : Fin grid0.N,
    win0_0.xsize (grid0.coords t) 0 = 1 ∧ win0_0.xsize (grid0.coords t) 1 = 8 ∧ win0_0.xsize (grid0.coords t) 3 = 4
    ∧ win0_1.xsize (grid0.coords t) 0 = 1 ∧ win0_1.xsize (grid0.coords t) 1 = 8 ∧ win0_1.xsize (grid0.coords t) 3 = 1600
    ∧ win0_0.xsize (grid0.coords t) 2 = win0_1.xsize (grid0.coords t) 2 := by decide +kernel

/-- A row of the input block inside the array is read through the fill, whatever fills the rest. -/
theorem fill_inside (t : Fin cfg0.N) (d : S1x8x104x4.Idx → Elt F .i32) (g : (win0_0.xblock (grid0.coords t)).Idx → Elt F .i32)
    (b : Fin 8) (q : Fin 104) (k : Fin 4) (hq : q.val < win0_0.xsize (grid0.coords t) 2) :
    ∃ hm : win0_0.moved (grid0.coords t) (ix4 (0 : Fin 1) b q k) = true,
      win0_0.fill (grid0.coords t) d g (ix4 (0 : Fin 1) b q k)
        = g fun a => ⟨((ix4 (0 : Fin 1) b q k : S1x8x104x4.Idx) a).val, (win0_0.moved_iff (grid0.coords t) _).mp hm a⟩ := by
  obtain ⟨h0, h1, h3, -, -, -, -⟩ := cut_facts t
  have hm : win0_0.moved (grid0.coords t) (ix4 (0 : Fin 1) b q k) = true := by
    rw [Window.moved_iff]
    intro a
    match a with
    | ⟨0, _⟩ => show (0 : Nat) < win0_0.xsize (grid0.coords t) 0; rw [h0]; exact Nat.zero_lt_one
    | ⟨1, _⟩ => show b.val < win0_0.xsize (grid0.coords t) 1; rw [h1]; exact b.isLt
    | ⟨2, _⟩ => exact hq
    | ⟨3, _⟩ => show k.val < win0_0.xsize (grid0.coords t) 3; rw [h3]; exact k.isLt
  refine ⟨hm, ?_⟩
  unfold Window.fill; rw [dif_pos hm]

set_option maxHeartbeats 1000000 in
/-- The rows of the result block inside the array do not depend on what fills the input block past the array's end. -/
theorem cut_out_congr (t : Fin cfg0.N) (d d' : S1x8x104x4.Idx → Elt F .i32) (g : (win0_0.xblock (grid0.coords t)).Idx → Elt F .i32) :
    win0_1.cut (grid0.coords t) (out0_1 (win0_0.fill (grid0.coords t) d g))
      = win0_1.cut (grid0.coords t) (out0_1 (win0_0.fill (grid0.coords t) d' g)) := by
  funext y
  obtain ⟨-, -, -, h0, h1, h3, h2⟩ := cut_facts t
  have y0 : (y 0).val < 1 := h0 ▸ (y 0).isLt
  have y1 : (y 1).val < 8 := h1 ▸ (y 1).isLt
  have y2 : (y 2).val < 104 := Nat.lt_of_lt_of_le (y 2).isLt (win0_1.xsize_le (grid0.coords t) 2)
  have y2i : (y 2).val < win0_0.xsize (grid0.coords t) 2 := h2.symm ▸ (y 2).isLt
  have y3 : (y 3).val < 1600 := h3 ▸ (y 3).isLt
  have e : (win0_1.xinj (grid0.coords t) y : S1x8x104x1600.Idx)
      = ix4 (⟨(y 0).val, y0⟩ : Fin 1) (⟨(y 1).val, y1⟩ : Fin 8) (⟨(y 2).val, y2⟩ : Fin 104) (⟨(y 3).val, y3⟩ : Fin 1600) := by
    funext a; match a with | ⟨0, _⟩ => rfl | ⟨1, _⟩ => rfl | ⟨2, _⟩ => rfl | ⟨3, _⟩ => rfl
  show out0_1 _ (win0_1.xinj (grid0.coords t) y) = out0_1 _ (win0_1.xinj (grid0.coords t) y)
  rw [out0_1_eq, out0_1_eq, e]
  refine outBlk_congr _ _ _ _ _ _ fun k => ?_
  obtain ⟨hm, e1⟩ := fill_inside t d g ⟨(y 1).val, y1⟩ ⟨(y 2).val, y2⟩ k y2i
  obtain ⟨hm', e2⟩ := fill_inside t d' g ⟨(y 1).val, y1⟩ ⟨(y 2).val, y2⟩ k y2i
  rw [e1, e2]

end Cert.KernelIdeal.Hand

end
-- ==== Proof.KernelIdeal.Frame.lean ====
/-
  The body obligation at every point, the run of @main by the library's launch theorem, and the frame.
-/
import proofs.«101547_j12352325943704_2_alg».proof.Proof.KernelIdeal.Data
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation -/

/-- What the body is called with at point `t`: the invariant, nothing owed, and each window's current staging buffer at
    what the body finds there; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns: each buffer stated on the rows inside the array only (both windows are cut at the last block of
    the query axis), anything past them. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t)))))

set_option maxHeartbeats 1000000 in
/-- The body at any point: the input's buffer arrives holding its block filled out with some `d0`, the result's holding
    anything; the body leaves the input's as it was and the result's at `out0_1` of it, whose rows inside the array are
    those of `out0_1 (inFull …)` (`cut_out_congr`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  have hx : win0_0.cut (grid0.coords t) (inFull m c t) = iblk m c 0 t := win0_0.cut_fill _ _ _
  iintro ⟨HΦ, Ho, ⟨%d0, H0⟩, ⟨%d1, H1⟩⟩
  have hy : win0_1.fill (grid0.coords t) (out0_1 (win0_0.fill (grid0.coords t) d0 (iblk m c 0 t)))
        (win0_1.cut (grid0.coords t) (out0_1 (inFull m c t)))
      = out0_1 (win0_0.fill (grid0.coords t) d0 (iblk m c 0 t)) :=
    win0_1.fill_congr_cut (grid0.coords t) (cut_out_congr t d0 pad (iblk m c 0 t))
  iapply (sound_kernel (F := F) c Set.univ (grid0.coords t) _ _ _ _ (win0_0.fill (grid0.coords t) d0 (iblk m c 0 t)) _)
  isplitl [H0]; · iexact H0
  isplitl [H1]; · iexists d1; iexact H1
  iintro ⟨H0, H1⟩
  isplitl [HΦ]; · iexact HΦ
  isplitl [Ho]; · iexact Ho
  isplitl [H0]
  · iexists d0; rw [hx]; try iexact H0
  · iexists out0_1 (win0_0.fill (grid0.coords t) d0 (iblk m c 0 t)); rw [hy]; try iexact H1

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, every array of the region ends at what the library computes from the proof data, and every other
    unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: @main terminates, faults nowhere and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Hand

end
-- ==== Proof.MaskFlat.lean ====
/-
  The mask with its cells flattened, and the same mask with its cells as (row, column).

  The kernel writes each query's 40 × 40 mask as one run of 1600 positions n = 40·h + w: at position n it marks whether
  the cell in row n / 40 and column n mod 40 (as the program recovers them from n, `rowOf` and `colOf`) lies outside the
  query's box, whose four bounds it reads from one packed word array. Casting that [2, 64, 300, 1600] result to
  [2, 64, 300, 40, 40] keeps the row-major order, so the cell (h, w) of the cast is position 40·h + w of the run; there
  the recovered row is h and the recovered column w, and a bit widened to 32 bits converts as a signed integer to the same
  float as the bit itself converts unsigned. Hence the cast result is the specification's mask of the bounds.
-/
import proofs.«101547_j12352325943704_2_alg».proof.Proof.BoxMask
import Idealize.ShloMosaic.PureOps
import Idealize.ShloMosaic.PureOps.Ideal
import Idealize.ShloMosaic.Lib.ValueIdx
import Idealize.ShloMosaic.Lib.Pipeline.Value

noncomputable section

namespace Cert.MaskFlat

open Idealize.ShloMosaic Idealize.ShloMosaic.ValueIdx

variable {F : FTy → Type} [FloatOps F]

/-- The packed bounds: branch, image, query, and which of x1, y1, x2, y2. -/
abbrev SWords : Shape := ⟨4, ![2, 64, 300, 4]⟩
/-- The result with each query's 1600 cells in one run. -/
abbrev SFlat : Shape := ⟨4, ![2, 64, 300, 1600]⟩

/-- The mask as the kernel's region writes it, cells flattened: at (r, b, q, n) the outside-bit of the cell whose row and
    column the program recovers from n, against the four bounds packed at (r, b, q, ·), widened to a word and converted
    as a signed integer. -/
def GK (A : SWords.Idx → BitVec 32) : SFlat.Idx → F .f32 := fun i =>
  FloatOps.sitofp .f32 ((Cert.BoxMask.outside (A (ix4 (i 0) (i 1) (i 2) (⟨0, by decide⟩ : Fin 4))) (A (ix4 (i 0) (i 1) (i 2) (⟨1, by decide⟩ : Fin 4))) (A (ix4 (i 0) (i 1) (i 2) (⟨2, by decide⟩ : Fin 4))) (A (ix4 (i 0) (i 1) (i 2) (⟨3, by decide⟩ : Fin 4))) (Cert.BoxMask.rowOf (BitVec.ofNat 32 (i 3).val)) (Cert.BoxMask.colOf (BitVec.ofNat 32 (i 3).val))).setWidth 32)

/-- `GK` at an index given by its coordinates. -/
theorem GK_apply (A : SWords.Idx → BitVec 32) (r : Fin 2) (b : Fin 64) (q : Fin 300) (n : Fin 1600) :
    GK (F := F) A (ix4 r b q n)
      = FloatOps.sitofp .f32 ((Cert.BoxMask.outside (A (ix4 r b q (⟨0, by decide⟩ : Fin 4))) (A (ix4 r b q (⟨1, by decide⟩ : Fin 4))) (A (ix4 r b q (⟨2, by decide⟩ : Fin 4))) (A (ix4 r b q (⟨3, by decide⟩ : Fin 4)))
          (Cert.BoxMask.rowOf (BitVec.ofNat 32 n.val)) (Cert.BoxMask.colOf (BitVec.ofNat 32 n.val))).setWidth 32) := rfl

/-- Cast to (branch, image, query, row, column), the flattened mask over a packed array `A` that holds the bounds `B` is
    the specification's mask of `B`. -/
theorem reshape_GK (A : SWords.Idx → BitVec 32) (B : Fin 2 → Fin 4 → IVec Cert.BoxMask.SB 32)
    (hAB : ∀ (r : Fin 2) (b : Fin 64) (q : Fin 300) (k : Fin 4), A (ix4 r b q k) = B r k (ix2 b q))
    (h : SFlat.ShapeCasts Cert.BoxMask.SOut) :
    shapeCast Cert.BoxMask.SOut (GK (F := Ideal) A) h = Cert.BoxMask.mask B := by
  funext i
  obtain ⟨r, b, q, hh, w, rfl⟩ : ∃ (r : Fin 2) (b : Fin 64) (q : Fin 300) (hh w : Fin 40), i = ix5 r b q hh w :=
    ⟨i 0, i 1, i 2, i 3, i 4, eq_ix5 i⟩
  have hn : 40 * hh.val + w.val < 1600 := by omega
  -- the cell (hh, w) of the cast is position 40·hh + w of the run: the two row-major positions agree
  rw [shapeCast_apply _ h (ix5 r b q hh w) (ix4 r b q (⟨40 * hh.val + w.val, hn⟩ : Fin 1600)) (by
    rw [Shape.rowMajor_val_four, Shape.rowMajor_val_five]
    show ((r.val * 64 + b.val) * 300 + q.val) * 1600 + (40 * hh.val + w.val)
      = (((r.val * 64 + b.val) * 300 + q.val) * 40 + hh.val) * 40 + w.val
    omega)]
  rw [GK_apply, hAB r b q ⟨0, by decide⟩, hAB r b q ⟨1, by decide⟩, hAB r b q ⟨2, by decide⟩, hAB r b q ⟨3, by decide⟩]
  -- at that position the recovered row is hh and the recovered column w
  have hrc := Cert.BoxMask.rowCol_eq (⟨40 * hh.val + w.val, hn⟩ : Fin 1600)
  have hr : Cert.BoxMask.rowOf (BitVec.ofNat 32 (40 * hh.val + w.val)) = BitVec.ofNat 32 ((40 * hh.val + w.val) / 40) := hrc.1
  have hc : Cert.BoxMask.colOf (BitVec.ofNat 32 (40 * hh.val + w.val)) = BitVec.ofNat 32 ((40 * hh.val + w.val) % 40) := hrc.2
  rw [show (40 * hh.val + w.val) / 40 = hh.val by omega] at hr
  rw [show (40 * hh.val + w.val) % 40 = w.val by omega] at hc
  rw [hr, hc, Cert.BoxMask.sitofp_bit]
  rfl

end Cert.MaskFlat

end
-- ==== Proof.KernelIdeal.Value.lean ====
/-
  What the region's result array holds after the run, and the program's result after the reshape, as functions of the
  array of box words the host operations hand the region.

  Point t of the grid writes back the rows of its result block that lie inside the array; they are the body's function of
  the same rows of its input block (the two windows move together: the same branch, the same eight images, the same
  block of queries). The 48 blocks cover the [2, 64, 300, 1600] array, so it ends at ONE function of the box words,
  element by element (`final1`). The reshape [.., 1600] → [.., 40, 40] then reads cell (h, w) at position 40·h + w, whose
  row and column the body recovers as h and w.
-/
import proofs.«101547_j12352325943704_2_alg».proof.Proof.KernelIdeal.Data
import proofs.«101547_j12352325943704_2_alg».proof.Proof.MaskFlat
import Idealize.ShloMosaic.Lib.StableHlo.Run
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The two windows move together over the grid, and neither moves along its last axis. -/
theorem idx_facts : ∀ t : Fin cfg0.N,
    win0_0.index t (0 : Fin 4) = win0_1.index t (0 : Fin 4) ∧ win0_0.index t (1 : Fin 4) = win0_1.index t (1 : Fin 4)
    ∧ win0_0.index t (2 : Fin 4) = win0_1.index t (2 : Fin 4) ∧ win0_0.index t (3 : Fin 4) = 0 ∧ win0_1.index t (3 : Fin 4) = 0 :=
  (by decide +kernel : ∀ t : Fin grid0.N, _)

set_option maxHeartbeats 4000000 in
/-- WHAT POINT `t` WRITES BACK is block `t` of `GK` of the box words as the region finds them. -/
theorem flushed1_eq (c : Dev nD) (t : Fin cfg0.N) :
    (dats m 0 c).flushed 1 t = ((cfg0.win 1).blk t).view.read (Elt F) (Cert.MaskFlat.GK (V m c main_v116)) := by
  show (cfg0.win 1).cut (grid0.coords t) ((dats m 0 c).after 1 t) = _
  rw [after0_1, out0_1_eq]
  funext y
  obtain ⟨-, -, -, h0, h1, h3, h2⟩ := cut_facts t
  obtain ⟨e0, e1, e2, e3, e4⟩ := idx_facts t
  have y0 : (y 0).val < 1 := Nat.lt_of_lt_of_eq (show (y 0).val < win0_1.xsize (grid0.coords t) 0 from (y 0).isLt) h0
  have y1 : (y 1).val < 8 := Nat.lt_of_lt_of_eq (show (y 1).val < win0_1.xsize (grid0.coords t) 1 from (y 1).isLt) h1
  have y2' : (y 2).val < 104 := Nat.lt_of_lt_of_le (show (y 2).val < win0_1.xsize (grid0.coords t) 2 from (y 2).isLt) (win0_1.xsize_le (grid0.coords t) 2)
  have y2i : (y 2).val < win0_0.xsize (grid0.coords t) 2 := Nat.lt_of_lt_of_eq (show (y 2).val < win0_1.xsize (grid0.coords t) 2 from (y 2).isLt) h2.symm
  have y3 : (y 3).val < 1600 := Nat.lt_of_lt_of_eq (show (y 3).val < win0_1.xsize (grid0.coords t) 3 from (y 3).isLt) h3
  clear h0 h1 h2 h3
  have e : (win0_1.xinj (grid0.coords t) y : S1x8x104x1600.Idx)
      = ix4 (⟨(y 0).val, y0⟩ : Fin 1) (⟨(y 1).val, y1⟩ : Fin 8) (⟨(y 2).val, y2'⟩ : Fin 104) (⟨(y 3).val, y3⟩ : Fin 1600) := by
    funext a; match a with | ⟨0, _⟩ => rfl | ⟨1, _⟩ => rfl | ⟨2, _⟩ => rfl | ⟨3, _⟩ => rfl
  show outBlk (inFull m c t) (win0_1.xinj (grid0.coords t) y) = Cert.MaskFlat.GK (V m c main_v116) (((cfg0.win 1).blk t).view.emb y)
  rw [e, outBlk_apply]
  have hfi := fun k : Fin 4 => fill_inside t pad (iblk m c 0 t) ⟨(y 1).val, y1⟩ ⟨(y 2).val, y2'⟩ k y2i
  clear y2i
  have hw : ∀ k : Fin 4, inFull m c t (ix4 (0 : Fin 1) (⟨(y 1).val, y1⟩ : Fin 8) (⟨(y 2).val, y2'⟩ : Fin 104) k)
      = V m c main_v116 (ix4 ((((cfg0.win 1).blk t).view.emb y) 0) ((((cfg0.win 1).blk t).view.emb y) 1) ((((cfg0.win 1).blk t).view.emb y) 2) k) := by
    intro k
    obtain ⟨hm, e1'⟩ := hfi k
    unfold inFull; rw [e1']
    show V m c main_v116 (((cfg0.win 0).blk t).view.emb _) = _
    refine congrArg (V m c main_v116) (funext fun a => Fin.ext ?_)
    match a with
    | ⟨0, _⟩ => show win0_0.index t (0 : Fin 4) * 1 + 1 * 0 = win0_1.index t (0 : Fin 4) * 1 + 1 * (y 0).val; omega
    | ⟨1, _⟩ => show win0_0.index t (1 : Fin 4) * 8 + 1 * (y 1).val = win0_1.index t (1 : Fin 4) * 8 + 1 * (y 1).val; omega
    | ⟨2, _⟩ => show win0_0.index t (2 : Fin 4) * 104 + 1 * (y 2).val = win0_1.index t (2 : Fin 4) * 104 + 1 * (y 2).val; omega
    | ⟨3, _⟩ => show win0_0.index t (3 : Fin 4) * 4 + 1 * k.val = k.val; omega
  have e3' : ((((cfg0.win 1).blk t).view.emb y) 3).val = (y 3).val := by
    show win0_1.index t (3 : Fin 4) * 1600 + 1 * (y 3).val = (y 3).val; omega
  rw [hw, hw, hw, hw]
  show _ = FloatOps.sitofp .f32 ((Cert.BoxMask.outside _ _ _ _
    (Cert.BoxMask.rowOf (BitVec.ofNat 32 ((((cfg0.win 1).blk t).view.emb y) 3).val))
    (Cert.BoxMask.colOf (BitVec.ofNat 32 ((((cfg0.win 1).blk t).view.emb y) 3).val))).setWidth 32)
  rw [e3']

/-- An index of the result array is in point `t`'s block iff each coordinate is in the block's range on its axis, the
    range cut at the array's end. -/
theorem mem_blk1 (t : Fin cfg0.N) (i : S2x64x300x1600.Idx) :
    i ∈ ((cfg0.win 1).blk t).view.set ↔ ∀ a : Fin 4, win0_1.index t a * S1x8x104x1600.size a ≤ (i a).val
      ∧ (i a).val < win0_1.index t a * S1x8x104x1600.size a + win0_1.xsize (grid0.coords t) a := by
  show i ∈ ((View.whole main_v117).slice (win0_1.rect t)).set ↔ _
  rw [View.set_slice_whole, Rect.mem_set_unit]
  exact Iff.rfl

/-- Every block position (branch, block of images, block of queries) is SOME point's, its block uncut but along the
    queries, where it ends at the array's end. -/
theorem idx_onto : ∀ (r : Fin 2) (bi : Fin 8) (qi : Fin 3), ∃ t : Fin cfg0.N,
    win0_1.index t = ![r.val, bi.val, qi.val, 0]
    ∧ win0_1.xsize (grid0.coords t) 0 = 1 ∧ win0_1.xsize (grid0.coords t) 1 = 8 ∧ win0_1.xsize (grid0.coords t) 3 = 1600
    ∧ qi.val * 104 + win0_1.xsize (grid0.coords t) 2 = min (qi.val * 104 + 104) 300 :=
  (by decide +kernel : ∀ (r : Fin 2) (bi : Fin 8) (qi : Fin 3), ∃ t : Fin grid0.N,
    win0_1.index t = ![r.val, bi.val, qi.val, 0]
    ∧ win0_1.xsize (grid0.coords t) 0 = 1 ∧ win0_1.xsize (grid0.coords t) 1 = 8 ∧ win0_1.xsize (grid0.coords t) 3 = 1600
    ∧ qi.val * 104 + win0_1.xsize (grid0.coords t) 2 = min (qi.val * 104 + 104) 300)

set_option maxHeartbeats 1000000 in
/-- The 48 blocks, cut at the array's end, cover the result array. -/
theorem cover1 (i : S2x64x300x1600.Idx) :
    ∃ t : Fin cfg0.N, (cfg0.win 1).flush t = true ∧ i ∈ ((cfg0.win 1).blk t).view.set := by
  have hi0 : (i 0).val < 2 := (i 0).isLt
  have hi1 : (i 1).val < 64 := (i 1).isLt
  have hi2 : (i 2).val < 300 := (i 2).isLt
  have hi3 : (i 3).val < 1600 := (i 3).isLt
  obtain ⟨t, ht, hx0, hx1, hx3, hx2⟩ := idx_onto ⟨(i 0).val, hi0⟩ ⟨(i 1).val / 8, by omega⟩ ⟨(i 2).val / 104, by omega⟩
  have q0 : win0_1.index t (0 : Fin 4) = (i 0).val := congrFun ht 0
  have q1 : win0_1.index t (1 : Fin 4) = (i 1).val / 8 := congrFun ht 1
  have q2 : win0_1.index t (2 : Fin 4) = (i 2).val / 104 := congrFun ht 2
  have q3 : win0_1.index t (3 : Fin 4) = 0 := congrFun ht 3
  refine ⟨t, flush0_1 t, ?_⟩
  rw [mem_blk1]
  intro a
  match a with
  | ⟨0, _⟩ =>
    show win0_1.index t (0 : Fin 4) * 1 ≤ (i 0).val ∧ (i 0).val < win0_1.index t (0 : Fin 4) * 1 + win0_1.xsize (grid0.coords t) 0
    rw [hx0, q0]; omega
  | ⟨1, _⟩ =>
    show win0_1.index t (1 : Fin 4) * 8 ≤ (i 1).val ∧ (i 1).val < win0_1.index t (1 : Fin 4) * 8 + win0_1.xsize (grid0.coords t) 1
    rw [hx1, q1]; omega
  | ⟨2, _⟩ =>
    show win0_1.index t (2 : Fin 4) * 104 ≤ (i 2).val ∧ (i 2).val < win0_1.index t (2 : Fin 4) * 104 + win0_1.xsize (grid0.coords t) 2
    rw [q2]
    generalize win0_1.xsize (grid0.coords t) 2 = s at hx2 ⊢
    clear hx0 hx1 hx3 ht q0 q1 q2 q3
    show (i 2).val / 104 * 104 ≤ (i 2).val ∧ (i 2).val < (i 2).val / 104 * 104 + s
    have hx2' : (i 2).val / 104 * 104 + s = min ((i 2).val / 104 * 104 + 104) 300 := hx2
    omega
  | ⟨3, _⟩ =>
    show win0_1.index t (3 : Fin 4) * 1600 ≤ (i 3).val ∧ (i 3).val < win0_1.index t (3 : Fin 4) * 1600 + win0_1.xsize (grid0.coords t) 3
    rw [hx3, q3]; omega

/-- THE RESULT ARRAY OF THE REGION after the run: `GK` of the box words as the region finds them. -/
theorem final1 (c : Dev nD) : (dats m 0 c).arrAt 1 cfg0.N = Cert.MaskFlat.GK (V m c main_v116) :=
  (dats m 0 c).arrAt_eq_of_cover 1 _ (fun t _ => flushed1_eq m c t) cover1

set_option maxHeartbeats 1000000 in
/-- THE PROGRAM'S RESULT after the reshape that follows the region: the region's result array, cells unflattened. -/
theorem tail_result (c : Dev nD) :
    Pipeline.afterTail₀ cfgs (dats m) 0 (V0 m) [hostOps1] c main_v118
      = shapeCast S2x64x300x40x40 (Cert.MaskFlat.GK (F := F) (V m c main_v116)) shapeCasts_S2x64x300x1600_S2x64x300x40x40 := by
  unfold Pipeline.afterTail₀
  show StableHlo.after hostOps1 _ (Proc.devRef .tc main_v118) = _
  after_results
  rw [(Pipeline.withArrays_arr spec0 launch0.win.arr_inj c _ _ 1).trans (final1 m c)]
  rfl

end Cert.KernelIdeal.Hand

end
-- ==== Proof.KernelIdeal.Bounds.lean ====
/-
  The bound arrays the second program hands to its kernel.

  Before its kernel runs, the program computes on the host, from the two box arrays (centre x, centre y, width, height per
  (image, query)) and the image sizes, the same eight word arrays as the reference — for each branch the bounds x1, y1, x2,
  y2 of an inclusive box, the upper two capped at 39 — and packs them into one [2, 64, 300, 4] array: the four bounds of a
  branch side by side along the last axis, the two branches stacked along a new leading axis. This file names the eight
  arrays, states the packed array as ONE term over them, and reads it at an index: at (r, b, q, k) it is bound k of branch
  r at (b, q). The float arithmetic inside the eight arrays is never opened.
-/
import proofs.«101547_j12352325943704_2_alg».proof.Proof.Gen.KernelIdeal.Launch
import proofs.«101547_j12352325943704_2_alg».proof.Proof.BoxMask
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.ValueIdx

variable {F : FTy → Type} [FloatOps F]

/-! ## The eight bound arrays, as the host operations compose them -/

/-- Branch 0's left bound x1 per (image, query), as the host operations compose it from the first box array and the image sizes. -/
def kerX1_0 (Vl : Valuation τ sig (Elt F)) : IVec Cert.BoxMask.SB 32 :=
  fptosi 32 (Host.floor (Host.divf (mulf (subf (shapeCast _ (extractStridedSlice S64x300x1 ![0, 0, 0] (Vl (Proc.devRef .tc main_arg0)) slices_S64x300x4_S64x300x1_0_0_0) shapeCasts_S64x300x1_S64x300) (mulf (broadcastInDim S64x300 ![] bcast_S_S64x300 (constant S_ .f32 0x3F000000#32)) (shapeCast _ (extractStridedSlice S64x300x1 ![0, 0, 2] (Vl (Proc.devRef .tc main_arg0)) slices_S64x300x4_S64x300x1_0_0_2) shapeCasts_S64x300x1_S64x300))) (broadcastInDim S64x300 ![0, 1] bcast_S64x1_S64x300_0_1 (sitofp .f32 (extractStridedSlice S64x1 ![0, 1] (Vl (Proc.devRef .tc main_arg2)) slices_S64x2_S64x1_0_1)))) (broadcastInDim S64x300 ![] bcast_S_S64x300 (constant S_ .f32 0x42000000#32))))

/-- Branch 0's top bound y1. -/
def kerY1_0 (Vl : Valuation τ sig (Elt F)) : IVec Cert.BoxMask.SB 32 :=
  fptosi 32 (Host.floor (Host.divf (mulf (subf (shapeCast _ (extractStridedSlice S64x300x1 ![0, 0, 1] (Vl (Proc.devRef .tc main_arg0)) slices_S64x300x4_S64x300x1_0_0_1) shapeCasts_S64x300x1_S64x300) (mulf (broadcastInDim S64x300 ![] bcast_S_S64x300 (constant S_ .f32 0x3F000000#32)) (shapeCast _ (extractStridedSlice S64x300x1 ![0, 0, 3] (Vl (Proc.devRef .tc main_arg0)) slices_S64x300x4_S64x300x1_0_0_3) shapeCasts_S64x300x1_S64x300))) (broadcastInDim S64x300 ![0, 1] bcast_S64x1_S64x300_0_1 (sitofp .f32 (extractStridedSlice S64x1 ![0, 0] (Vl (Proc.devRef .tc main_arg2)) slices_S64x2_S64x1_0_0)))) (broadcastInDim S64x300 ![] bcast_S_S64x300 (constant S_ .f32 0x42000000#32))))

/-- Branch 0's right bound x2, capped at 39. -/
def kerX2_0 (Vl : Valuation τ sig (Elt F)) : IVec Cert.BoxMask.SB 32 :=
  minsi (fptosi 32 (Host.floor (Host.divf (mulf (addf (shapeCast _ (extractStridedSlice S64x300x1 ![0, 0, 0] (Vl (Proc.devRef .tc main_arg0)) slices_S64x300x4_S64x300x1_0_0_0) shapeCasts_S64x300x1_S64x300) (mulf (broadcastInDim S64x300 ![] bcast_S_S64x300 (constant S_ .f32 0x3F000000#32)) (shapeCast _ (extractStridedSlice S64x300x1 ![0, 0, 2] (Vl (Proc.devRef .tc main_arg0)) slices_S64x300x4_S64x300x1_0_0_2) shapeCasts_S64x300x1_S64x300))) (broadcastInDim S64x300 ![0, 1] bcast_S64x1_S64x300_0_1 (sitofp .f32 (extractStridedSlice S64x1 ![0, 1] (Vl (Proc.devRef .tc main_arg2)) slices_S64x2_S64x1_0_1)))) (broadcastInDim S64x300 ![] bcast_S_S64x300 (constant S_ .f32 0x42000000#32))))) (broadcastInDim S64x300 ![] bcast_S_S64x300 (constantI S_ 32 39#32))

/-- Branch 0's bottom bound y2, capped at 39. -/
def kerY2_0 (Vl : Valuation τ sig (Elt F)) : IVec Cert.BoxMask.SB 32 :=
  minsi (fptosi 32 (Host.floor (Host.divf (mulf (addf (shapeCast _ (extractStridedSlice S64x300x1 ![0, 0, 1] (Vl (Proc.devRef .tc main_arg0)) slices_S64x300x4_S64x300x1_0_0_1) shapeCasts_S64x300x1_S64x300) (mulf (broadcastInDim S64x300 ![] bcast_S_S64x300 (constant S_ .f32 0x3F000000#32)) (shapeCast _ (extractStridedSlice S64x300x1 ![0, 0, 3] (Vl (Proc.devRef .tc main_arg0)) slices_S64x300x4_S64x300x1_0_0_3) shapeCasts_S64x300x1_S64x300))) (broadcastInDim S64x300 ![0, 1] bcast_S64x1_S64x300_0_1 (sitofp .f32 (extractStridedSlice S64x1 ![0, 0] (Vl (Proc.devRef .tc main_arg2)) slices_S64x2_S64x1_0_0)))) (broadcastInDim S64x300 ![] bcast_S_S64x300 (constant S_ .f32 0x42000000#32))))) (broadcastInDim S64x300 ![] bcast_S_S64x300 (constantI S_ 32 39#32))

/-- Branch 1's left bound x1, from the second box array. -/
def kerX1_1 (Vl : Valuation τ sig (Elt F)) : IVec Cert.BoxMask.SB 32 :=
  fptosi 32 (Host.floor (Host.divf (mulf (subf (shapeCast _ (extractStridedSlice S64x300x1 ![0, 0, 0] (Vl (Proc.devRef .tc main_arg1)) slices_S64x300x4_S64x300x1_0_0_0) shapeCasts_S64x300x1_S64x300) (mulf (broadcastInDim S64x300 ![] bcast_S_S64x300 (constant S_ .f32 0x3F000000#32)) (shapeCast _ (extractStridedSlice S64x300x1 ![0, 0, 2] (Vl (Proc.devRef .tc main_arg1)) slices_S64x300x4_S64x300x1_0_0_2) shapeCasts_S64x300x1_S64x300))) (broadcastInDim S64x300 ![0, 1] bcast_S64x1_S64x300_0_1 (sitofp .f32 (extractStridedSlice S64x1 ![0, 1] (Vl (Proc.devRef .tc main_arg2)) slices_S64x2_S64x1_0_1)))) (broadcastInDim S64x300 ![] bcast_S_S64x300 (constant S_ .f32 0x42000000#32))))

/-- Branch 1's top bound y1. -/
def kerY1_1 (Vl : Valuation τ sig (Elt F)) : IVec Cert.BoxMask.SB 32 :=
  fptosi 32 (Host.floor (Host.divf (mulf (subf (shapeCast _ (extractStridedSlice S64x300x1 ![0, 0, 1] (Vl (Proc.devRef .tc main_arg1)) slices_S64x300x4_S64x300x1_0_0_1) shapeCasts_S64x300x1_S64x300) (mulf (broadcastInDim S64x300 ![] bcast_S_S64x300 (constant S_ .f32 0x3F000000#32)) (shapeCast _ (extractStridedSlice S64x300x1 ![0, 0, 3] (Vl (Proc.devRef .tc main_arg1)) slices_S64x300x4_S64x300x1_0_0_3) shapeCasts_S64x300x1_S64x300))) (broadcastInDim S64x300 ![0, 1] bcast_S64x1_S64x300_0_1 (sitofp .f32 (extractStridedSlice S64x1 ![0, 0] (Vl (Proc.devRef .tc main_arg2)) slices_S64x2_S64x1_0_0)))) (broadcastInDim S64x300 ![] bcast_S_S64x300 (constant S_ .f32 0x42000000#32))))

/-- Branch 1's right bound x2, capped at 39. -/
def kerX2_1 (Vl : Valuation τ sig (Elt F)) : IVec Cert.BoxMask.SB 32 :=
  minsi (fptosi 32 (Host.floor (Host.divf (mulf (addf (shapeCast _ (extractStridedSlice S64x300x1 ![0, 0, 0] (Vl (Proc.devRef .tc main_arg1)) slices_S64x300x4_S64x300x1_0_0_0) shapeCasts_S64x300x1_S64x300) (mulf (broadcastInDim S64x300 ![] bcast_S_S64x300 (constant S_ .f32 0x3F000000#32)) (shapeCast _ (extractStridedSlice S64x300x1 ![0, 0, 2] (Vl (Proc.devRef .tc main_arg1)) slices_S64x300x4_S64x300x1_0_0_2) shapeCasts_S64x300x1_S64x300))) (broadcastInDim S64x300 ![0, 1] bcast_S64x1_S64x300_0_1 (sitofp .f32 (extractStridedSlice S64x1 ![0, 1] (Vl (Proc.devRef .tc main_arg2)) slices_S64x2_S64x1_0_1)))) (broadcastInDim S64x300 ![] bcast_S_S64x300 (constant S_ .f32 0x42000000#32))))) (broadcastInDim S64x300 ![] bcast_S_S64x300 (constantI S_ 32 39#32))

/-- Branch 1's bottom bound y2, capped at 39. -/
def kerY2_1 (Vl : Valuation τ sig (Elt F)) : IVec Cert.BoxMask.SB 32 :=
  minsi (fptosi 32 (Host.floor (Host.divf (mulf (addf (shapeCast _ (extractStridedSlice S64x300x1 ![0, 0, 1] (Vl (Proc.devRef .tc main_arg1)) slices_S64x300x4_S64x300x1_0_0_1) shapeCasts_S64x300x1_S64x300) (mulf (broadcastInDim S64x300 ![] bcast_S_S64x300 (constant S_ .f32 0x3F000000#32)) (shapeCast _ (extractStridedSlice S64x300x1 ![0, 0, 3] (Vl (Proc.devRef .tc main_arg1)) slices_S64x300x4_S64x300x1_0_0_3) shapeCasts_S64x300x1_S64x300))) (broadcastInDim S64x300 ![0, 1] bcast_S64x1_S64x300_0_1 (sitofp .f32 (extractStridedSlice S64x1 ![0, 0] (Vl (Proc.devRef .tc main_arg2)) slices_S64x2_S64x1_0_0)))) (broadcastInDim S64x300 ![] bcast_S_S64x300 (constant S_ .f32 0x42000000#32))))) (broadcastInDim S64x300 ![] bcast_S_S64x300 (constantI S_ 32 39#32))

/-- The eight bound arrays by branch `r` and by `k` = 0, 1, 2, 3 for x1, y1, x2, y2. -/
def kerB (Vl : Valuation τ sig (Elt F)) : Fin 2 → Fin 4 → IVec Cert.BoxMask.SB 32 := fun r k =>
  match r, k with
  | 0, 0 => kerX1_0 Vl | 0, 1 => kerY1_0 Vl | 0, 2 => kerX2_0 Vl | 0, 3 => kerY2_0 Vl
  | 1, 0 => kerX1_1 Vl | 1, 1 => kerY1_1 Vl | 1, 2 => kerX2_1 Vl | 1, 3 => kerY2_1 Vl

theorem kerB_0_0 (Vl : Valuation τ sig (Elt F)) : kerB Vl 0 0 = kerX1_0 Vl := rfl
theorem kerB_0_1 (Vl : Valuation τ sig (Elt F)) : kerB Vl 0 1 = kerY1_0 Vl := rfl
theorem kerB_0_2 (Vl : Valuation τ sig (Elt F)) : kerB Vl 0 2 = kerX2_0 Vl := rfl
theorem kerB_0_3 (Vl : Valuation τ sig (Elt F)) : kerB Vl 0 3 = kerY2_0 Vl := rfl
theorem kerB_1_0 (Vl : Valuation τ sig (Elt F)) : kerB Vl 1 0 = kerX1_1 Vl := rfl
theorem kerB_1_1 (Vl : Valuation τ sig (Elt F)) : kerB Vl 1 1 = kerY1_1 Vl := rfl
theorem kerB_1_2 (Vl : Valuation τ sig (Elt F)) : kerB Vl 1 2 = kerX2_1 Vl := rfl
theorem kerB_1_3 (Vl : Valuation τ sig (Elt F)) : kerB Vl 1 3 = kerY2_1 Vl := rfl

/-! ## The packed array after the host operations -/

/-- The packed array as one term over the eight bound arrays. -/
abbrev packed (Vl : Valuation τ sig (Elt F)) : IVec S2x64x300x4 32 :=
  concatenate S2x64x300x4 0 [⟨S1x64x300x4, broadcastInDim S1x64x300x4 ![1, 2, 3] bcast_S64x300x4_S1x64x300x4_1_2_3 (concatenate S64x300x4 2 [⟨S64x300x1, broadcastInDim S64x300x1 ![0, 1] bcast_S64x300_S64x300x1_0_1 (kerB Vl 0 0)⟩, ⟨S64x300x1, broadcastInDim S64x300x1 ![0, 1] bcast_S64x300_S64x300x1_0_1 (kerB Vl 0 1)⟩, ⟨S64x300x1, broadcastInDim S64x300x1 ![0, 1] bcast_S64x300_S64x300x1_0_1 (kerB Vl 0 2)⟩, ⟨S64x300x1, broadcastInDim S64x300x1 ![0, 1] bcast_S64x300_S64x300x1_0_1 (kerB Vl 0 3)⟩] concatenates_S64x300x1_S64x300x1_S64x300x1_S64x300x1_S64x300x4_d2)⟩, ⟨S1x64x300x4, broadcastInDim S1x64x300x4 ![1, 2, 3] bcast_S64x300x4_S1x64x300x4_1_2_3 (concatenate S64x300x4 2 [⟨S64x300x1, broadcastInDim S64x300x1 ![0, 1] bcast_S64x300_S64x300x1_0_1 (kerB Vl 1 0)⟩, ⟨S64x300x1, broadcastInDim S64x300x1 ![0, 1] bcast_S64x300_S64x300x1_0_1 (kerB Vl 1 1)⟩, ⟨S64x300x1, broadcastInDim S64x300x1 ![0, 1] bcast_S64x300_S64x300x1_0_1 (kerB Vl 1 2)⟩, ⟨S64x300x1, broadcastInDim S64x300x1 ![0, 1] bcast_S64x300_S64x300x1_0_1 (kerB Vl 1 3)⟩] concatenates_S64x300x1_S64x300x1_S64x300x1_S64x300x1_S64x300x4_d2)⟩] concatenates_S1x64x300x4_S1x64x300x4_S2x64x300x4_d0

set_option maxRecDepth 8192 in
set_option maxHeartbeats 4000000 in
/-- After the host operations the kernel's input array holds the packed array: each operation's result is its function
    of its operands' contents, composed along the stretch. -/
theorem after_bounds (Vl : Valuation τ sig (Elt F)) :
    StableHlo.after (List.flatten [hostOps0 (F := F)]) Vl (Proc.devRef .tc main_v116) = packed Vl := by
  simp only [List.flatten_cons, List.flatten_nil, List.append_nil]
  simp only [hostOps0]
  after_results_simp
  all_goals rfl

/-! ## Reading the packed array at an index -/

/-- Four (image, query) arrays, each given a last axis of extent one and laid side by side along it: at (b, q, k) the
    result is array k at (b, q). -/
theorem read_quad {α : Type} (A : Fin 4 → S64x300.Idx → α) (b : Fin 64) (q : Fin 300) (k : Fin 4) :
    concatenate S64x300x4 2
      [⟨S64x300x1, broadcastInDim S64x300x1 ![0, 1] bcast_S64x300_S64x300x1_0_1 (A 0)⟩,
       ⟨S64x300x1, broadcastInDim S64x300x1 ![0, 1] bcast_S64x300_S64x300x1_0_1 (A 1)⟩,
       ⟨S64x300x1, broadcastInDim S64x300x1 ![0, 1] bcast_S64x300_S64x300x1_0_1 (A 2)⟩,
       ⟨S64x300x1, broadcastInDim S64x300x1 ![0, 1] bcast_S64x300_S64x300x1_0_1 (A 3)⟩]
      concatenates_S64x300x1_S64x300x1_S64x300x1_S64x300x1_S64x300x4_d2 (ix3 b q k) = A k (ix2 b q) := by
  have hb : ∀ T : S64x300.Idx → α,
      broadcastInDim S64x300x1 ![0, 1] bcast_S64x300_S64x300x1_0_1 T (ix3 b q 0) = T (ix2 b q) := fun T =>
    broadcastInDim_apply _ _ _ _ (ix2 b q) (by intro a; match a with | ⟨0, _⟩ => rfl | ⟨1, _⟩ => rfl)
  have hi : ∀ k : Fin 4, ∀ a : Fin S64x300x1.rank, a.cast (rfl : S64x300x1.rank = S64x300x4.rank) ≠ 2 →
      ((ix3 b q (0 : Fin 1)) a).val = ((ix3 b q k) (a.cast (rfl : S64x300x1.rank = S64x300x4.rank))).val := by
    intro k a; match a with
    | ⟨0, _⟩ => exact fun _ => rfl
    | ⟨1, _⟩ => exact fun _ => rfl
    | ⟨2, _⟩ => exact fun hne => absurd rfl hne
  match k with
  | ⟨0, hk⟩ =>
    refine Eq.trans (concatenate_apply_piece (t := S64x300x4) 2 _ _ (ix3 b q (⟨0, hk⟩ : Fin 4)) 0 ?_ S64x300x1 _ ?_ rfl 0 ?_
      (ix3 b q 0) (hi ⟨0, hk⟩) ?_) (hb _)
    · show (0 : Nat) < 4; decide
    · rfl
    · rfl
    · rfl
  | ⟨1, hk⟩ =>
    refine Eq.trans (concatenate_apply_piece (t := S64x300x4) 2 _ _ (ix3 b q (⟨1, hk⟩ : Fin 4)) 1 ?_ S64x300x1 _ ?_ rfl 1 ?_
      (ix3 b q 0) (hi ⟨1, hk⟩) ?_) (hb _)
    · show (1 : Nat) < 4; decide
    · rfl
    · rfl
    · rfl
  | ⟨2, hk⟩ =>
    refine Eq.trans (concatenate_apply_piece (t := S64x300x4) 2 _ _ (ix3 b q (⟨2, hk⟩ : Fin 4)) 2 ?_ S64x300x1 _ ?_ rfl 2 ?_
      (ix3 b q 0) (hi ⟨2, hk⟩) ?_) (hb _)
    · show (2 : Nat) < 4; decide
    · rfl
    · rfl
    · rfl
  | ⟨3, hk⟩ =>
    refine Eq.trans (concatenate_apply_piece (t := S64x300x4) 2 _ _ (ix3 b q (⟨3, hk⟩ : Fin 4)) 3 ?_ S64x300x1 _ ?_ rfl 3 ?_
      (ix3 b q 0) (hi ⟨3, hk⟩) ?_) (hb _)
    · show (3 : Nat) < 4; decide
    · rfl
    · rfl
    · rfl

/-- A [64, 300, 4] array given a leading axis of extent one: at (0, b, q, k) it is the array at (b, q, k). -/
theorem read_lead4 {α : Type} (x : S64x300x4.Idx → α) (b : Fin 64) (q : Fin 300) (k : Fin 4) :
    broadcastInDim S1x64x300x4 ![1, 2, 3] bcast_S64x300x4_S1x64x300x4_1_2_3 x (ix4 0 b q k) = x (ix3 b q k) :=
  broadcastInDim_apply _ _ _ _ (ix3 b q k) (by intro a; match a with | ⟨0, _⟩ => rfl | ⟨1, _⟩ => rfl | ⟨2, _⟩ => rfl)

/-- The packed array at (r, b, q, k) is bound k of branch r at (b, q): the stack along the leading axis reads branch r,
    the leading unit axis drops, and the four bounds sit side by side along the last axis. -/
theorem packed_apply (Vl : Valuation τ sig (Elt F)) (r : Fin 2) (b : Fin 64) (q : Fin 300) (k : Fin 4) :
    packed Vl (ix4 r b q k) = kerB Vl r k (ix2 b q) := by
  match r with
  | ⟨0, _⟩ =>
    refine (concatenate_pair_apply_left (t := S2x64x300x4) (s₁ := S1x64x300x4) (s₂ := S1x64x300x4)
      0 _ _ _ (ix4 ⟨0, _⟩ b q k) rfl (ix4 0 b q k)
      (by intro a; match a with | ⟨0, _⟩ => rfl | ⟨1, _⟩ => rfl | ⟨2, _⟩ => rfl | ⟨3, _⟩ => rfl)).trans ?_
    rw [read_lead4]
    exact read_quad (kerB Vl 0) b q k
  | ⟨1, _⟩ =>
    refine (concatenate_pair_apply_right (t := S2x64x300x4) (s₁ := S1x64x300x4) (s₂ := S1x64x300x4)
      0 _ _ _ (ix4 ⟨1, _⟩ b q k) rfl rfl (ix4 0 b q k)
      (by intro a; match a with
        | ⟨0, _⟩ => exact fun hne => absurd rfl hne
        | ⟨1, _⟩ => exact fun _ => rfl | ⟨2, _⟩ => exact fun _ => rfl | ⟨3, _⟩ => exact fun _ => rfl)
      rfl).trans ?_
    rw [read_lead4]
    exact read_quad (kerB Vl 1) b q k

/-- So after the host operations the kernel's input array at (r, b, q, k) is bound k of branch r at (b, q). -/
theorem bounds_apply (Vl : Valuation τ sig (Elt F)) (r : Fin 2) (b : Fin 64) (q : Fin 300) (k : Fin 4) :
    (StableHlo.after (List.flatten [hostOps0 (F := F)]) Vl (Proc.devRef .tc main_v116) : IVec S2x64x300x4 32) (ix4 r b q k)
      = kerB Vl r k (ix2 b q) := by
  rw [after_bounds]
  exact packed_apply Vl r b q k

end Cert.KernelIdeal.Hand

end
-- ==== Proof.KernelIdeal.Result.lean ====
/-
  The run of the idealized kernel program with its result NAMED: @main terminates, leaves its arguments as launched, and
  its result — the region's array after the reshape — is the outside-the-box mask of the eight bound arrays the host
  operations compute from the arguments (`kerB`: the region's array of box words read back column by column).
-/
import proofs.«101547_j12352325943704_2_alg».proof.Proof.KernelIdeal.Frame
import proofs.«101547_j12352325943704_2_alg».proof.Proof.KernelIdeal.Value
import proofs.«101547_j12352325943704_2_alg».proof.Proof.KernelIdeal.Bounds
import proofs.«101547_j12352325943704_2_alg».proof.Proof.MaskFlat

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

set_option maxHeartbeats 1000000 in
/-- At the exact instance the program's result is the mask of `kerB` of the launch contents. -/
theorem run_read : θ_run defs (onTc (τ := τ) (main (F := Ideal))) ⟨m, fun _ => 0, ρ⟩ (fun r => ∀ c : Dev nD,
      r.2.mem ((c.tc : Thread nD τ).loc main_v118) = Cert.BoxMask.mask (kerB (F := Ideal) (fun b => m (c, b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v118 (Pipeline.mem_restRefs_of main_v118 (by decide) (by decide))).trans
        ((tail_result m c).trans
          (Cert.MaskFlat.reshape_GK (V m c main_v116) (kerB (F := Ideal) (fun b => m (c, b))) (bounds_apply (F := Ideal) (fun b => m (c, b))) _)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main (F := Ideal) m ρ)

end Cert.KernelIdeal.Hand

end
-- ==== Proof.RefRead.lean ====
/-
  The reference program's result, read as the specification.

  The reference builds its 2 × 64 × 300 × 40 × 40 result from eight word arrays over (image, query) — for each of the two
  branches the bounds x1, y1, x2, y2 of an inclusive box — by carrying every array and the two coordinate ramps
  (row h, column w) to a common shape with broadcasts, comparing, joining the four comparisons by or, and stacking the
  two branches along a new leading axis. Every one of those steps only re-indexes: read at (r, b, q, h, w) the result is
  the outside-bit of cell (h, w) against branch r's box of query (b, q). The eight arrays themselves are never opened.
-/
import proofs.«101547_j12352325943704_2_alg».proof.Proof.Gen.ReferenceIdeal.Run
import proofs.«101547_j12352325943704_2_alg».proof.Proof.BoxMask
import Idealize.ShloMosaic.Lib.ValueIdx
import Idealize.ShloMosaic.Lib.Pipeline.Value
import Idealize.ShloMosaic.Lib.ValueLayout

noncomputable section

namespace Cert.ReferenceIdeal.RefValue

open Cert.ReferenceIdeal Cert.ReferenceIdeal.Gen Cert.ReferenceIdeal.Value Idealize.ShloMosaic Idealize.ShloMosaic.ValueIdx

/-! ## Reading each broadcast pattern at an index -/

/-- An (image, query) array carried to (image, query, 1, 1) and then along the rows: at (b, q, h, 0) it is the array
    at (b, q). -/
theorem read_bq_row {α : Type} (T : S64x300.Idx → α)
    (h1 : S64x300.BroadcastsInDim S64x300x1x1 ![0, 1]) (h2 : S64x300x1x1.BroadcastsInDim S64x300x40x1 ![0, 1, 2, 3])
    (b : Fin 64) (q : Fin 300) (h : Fin 40) :
    broadcastInDim S64x300x40x1 ![0, 1, 2, 3] h2 (broadcastInDim S64x300x1x1 ![0, 1] h1 T) (ix4 b q h 0) = T (ix2 b q) := by
  rw [broadcastInDim_apply _ h2 _ _ (ix4 b q 0 0)
        (by intro a; match a with | ⟨0, _⟩ => rfl | ⟨1, _⟩ => rfl | ⟨2, _⟩ => rfl | ⟨3, _⟩ => rfl),
      broadcastInDim_apply _ h1 _ _ (ix2 b q) (by intro a; match a with | ⟨0, _⟩ => rfl | ⟨1, _⟩ => rfl)]

/-- The same array carried along the columns: at (b, q, 0, w) it is the array at (b, q). -/
theorem read_bq_col {α : Type} (T : S64x300.Idx → α)
    (h1 : S64x300.BroadcastsInDim S64x300x1x1 ![0, 1]) (h2 : S64x300x1x1.BroadcastsInDim S64x300x1x40 ![0, 1, 2, 3])
    (b : Fin 64) (q : Fin 300) (w : Fin 40) :
    broadcastInDim S64x300x1x40 ![0, 1, 2, 3] h2 (broadcastInDim S64x300x1x1 ![0, 1] h1 T) (ix4 b q 0 w) = T (ix2 b q) := by
  rw [broadcastInDim_apply _ h2 _ _ (ix4 b q 0 0)
        (by intro a; match a with | ⟨0, _⟩ => rfl | ⟨1, _⟩ => rfl | ⟨2, _⟩ => rfl | ⟨3, _⟩ => rfl),
      broadcastInDim_apply _ h1 _ _ (ix2 b q) (by intro a; match a with | ⟨0, _⟩ => rfl | ⟨1, _⟩ => rfl)]

/-- The row ramp 0 … 39, stood up as a column and carried to every (image, query): at (b, q, h, 0) it is the word h. -/
theorem read_row_ramp
    (h0 : S40.BroadcastsInDim S40x1 ![0]) (h1 : S40x1.BroadcastsInDim S1x1x40x1 ![2, 3])
    (h2 : S1x1x40x1.BroadcastsInDim S64x300x40x1 ![0, 1, 2, 3])
    (b : Fin 64) (q : Fin 300) (h : Fin 40) :
    broadcastInDim S64x300x40x1 ![0, 1, 2, 3] h2
      (broadcastInDim S1x1x40x1 ![2, 3] h1 (broadcastInDim S40x1 ![0] h0 (iotaInDim S40 32 0))) (ix4 b q h 0)
      = BitVec.ofNat 32 h.val := by
  rw [broadcastInDim_apply _ h2 _ _ (ix4 0 0 h 0)
        (by intro a; match a with | ⟨0, _⟩ => rfl | ⟨1, _⟩ => rfl | ⟨2, _⟩ => rfl | ⟨3, _⟩ => rfl),
      broadcastInDim_apply _ h1 _ _ (ix2 h 0) (by intro a; match a with | ⟨0, _⟩ => rfl | ⟨1, _⟩ => rfl),
      broadcastInDim_apply _ h0 _ _ (ix1 h) (by intro a; match a with | ⟨0, _⟩ => rfl)]
  rfl

/-- The column ramp 0 … 39, laid as a row and carried to every (image, query): at (b, q, 0, w) it is the word w. -/
theorem read_col_ramp
    (h0 : S40.BroadcastsInDim S1x40 ![1]) (h1 : S1x40.BroadcastsInDim S1x1x1x40 ![2, 3])
    (h2 : S1x1x1x40.BroadcastsInDim S64x300x1x40 ![0, 1, 2, 3])
    (b : Fin 64) (q : Fin 300) (w : Fin 40) :
    broadcastInDim S64x300x1x40 ![0, 1, 2, 3] h2
      (broadcastInDim S1x1x1x40 ![2, 3] h1 (broadcastInDim S1x40 ![1] h0 (iotaInDim S40 32 0))) (ix4 b q 0 w)
      = BitVec.ofNat 32 w.val := by
  rw [broadcastInDim_apply _ h2 _ _ (ix4 0 0 0 w)
        (by intro a; match a with | ⟨0, _⟩ => rfl | ⟨1, _⟩ => rfl | ⟨2, _⟩ => rfl | ⟨3, _⟩ => rfl),
      broadcastInDim_apply _ h1 _ _ (ix2 0 w) (by intro a; match a with | ⟨0, _⟩ => rfl | ⟨1, _⟩ => rfl),
      broadcastInDim_apply _ h0 _ _ (ix1 w) (by intro a; match a with | ⟨0, _⟩ => rfl)]
  rfl

/-- A per-row value spread over the columns: at (b, q, h, w) it is the value at (b, q, h, 0). -/
theorem read_spread_cols {α : Type} (x : S64x300x40x1.Idx → α)
    (h0 : S64x300x40x1.BroadcastsInDim S64x300x40x40 ![0, 1, 2, 3]) (b : Fin 64) (q : Fin 300) (h w : Fin 40) :
    broadcastInDim S64x300x40x40 ![0, 1, 2, 3] h0 x (ix4 b q h w) = x (ix4 b q h 0) :=
  broadcastInDim_apply _ h0 _ _ (ix4 b q h 0)
    (by intro a; match a with | ⟨0, _⟩ => rfl | ⟨1, _⟩ => rfl | ⟨2, _⟩ => rfl | ⟨3, _⟩ => rfl)

/-- A per-column value spread over the rows: at (b, q, h, w) it is the value at (b, q, 0, w). -/
theorem read_spread_rows {α : Type} (x : S64x300x1x40.Idx → α)
    (h0 : S64x300x1x40.BroadcastsInDim S64x300x40x40 ![0, 1, 2, 3]) (b : Fin 64) (q : Fin 300) (h w : Fin 40) :
    broadcastInDim S64x300x40x40 ![0, 1, 2, 3] h0 x (ix4 b q h w) = x (ix4 b q 0 w) :=
  broadcastInDim_apply _ h0 _ _ (ix4 b q 0 w)
    (by intro a; match a with | ⟨0, _⟩ => rfl | ⟨1, _⟩ => rfl | ⟨2, _⟩ => rfl | ⟨3, _⟩ => rfl)

/-- One branch's mask given a leading axis of extent one: at (0, b, q, h, w) it is the mask at (b, q, h, w). -/
theorem read_lead {α : Type} (x : S64x300x40x40.Idx → α)
    (h0 : S64x300x40x40.BroadcastsInDim S1x64x300x40x40 ![1, 2, 3, 4]) (b : Fin 64) (q : Fin 300) (h w : Fin 40) :
    broadcastInDim S1x64x300x40x40 ![1, 2, 3, 4] h0 x (ix5 0 b q h w) = x (ix4 b q h w) :=
  broadcastInDim_apply _ h0 _ _ (ix4 b q h w)
    (by intro a; match a with | ⟨0, _⟩ => rfl | ⟨1, _⟩ => rfl | ⟨2, _⟩ => rfl | ⟨3, _⟩ => rfl)

/-! ## One branch's mask at an index -/

/-- An elementwise or at an index is the or of the elements (by definition). -/
theorem ori_apply {s : Shape} {n : Nat} (x y : IVec s n) (i : s.Idx) : ori x y i = IntOp.ori (x i) (y i) := rfl
/-- An elementwise integer comparison at an index compares the elements (by definition). -/
theorem cmpi_apply {s : Shape} {n : Nat} (p : CmpIPredicate) (x y : IVec s n) (i : s.Idx) :
    cmpi p x y i = IntOp.cmpi p (x i) (y i) := rfl

/-- One branch of the program over ANY four bound arrays: the rows compared against y1 and y2 and joined, spread over
    the columns; the columns compared against x1, then against x2, each spread over the rows; the three joined by or and
    given the leading unit axis. Read at (0, b, q, h, w) it is the outside-bit of cell (h, w) against the box that the
    four arrays hold at (b, q). -/
theorem read_branch (X1 Y1 X2 Y2 : IVec S64x300 32) (b : Fin 64) (q : Fin 300) (h w : Fin 40) :
    broadcastInDim S1x64x300x40x40 ![1, 2, 3, 4] bcast_S64x300x40x40_S1x64x300x40x40_1_2_3_4
      (ori (ori
        (broadcastInDim S64x300x40x40 ![0, 1, 2, 3] bcast_S64x300x40x1_S64x300x40x40_0_1_2_3
          (ori
            (cmpi .slt
              (broadcastInDim S64x300x40x1 ![0, 1, 2, 3] bcast_S1x1x40x1_S64x300x40x1_0_1_2_3
                (broadcastInDim S1x1x40x1 ![2, 3] bcast_S40x1_S1x1x40x1_2_3
                  (broadcastInDim S40x1 ![0] bcast_S40_S40x1_0 (iotaInDim S40 32 0))))
              (broadcastInDim S64x300x40x1 ![0, 1, 2, 3] bcast_S64x300x1x1_S64x300x40x1_0_1_2_3
                (broadcastInDim S64x300x1x1 ![0, 1] bcast_S64x300_S64x300x1x1_0_1 Y1)))
            (cmpi .sgt
              (broadcastInDim S64x300x40x1 ![0, 1, 2, 3] bcast_S1x1x40x1_S64x300x40x1_0_1_2_3
                (broadcastInDim S1x1x40x1 ![2, 3] bcast_S40x1_S1x1x40x1_2_3
                  (broadcastInDim S40x1 ![0] bcast_S40_S40x1_0 (iotaInDim S40 32 0))))
              (broadcastInDim S64x300x40x1 ![0, 1, 2, 3] bcast_S64x300x1x1_S64x300x40x1_0_1_2_3
                (broadcastInDim S64x300x1x1 ![0, 1] bcast_S64x300_S64x300x1x1_0_1 Y2)))))
        (broadcastInDim S64x300x40x40 ![0, 1, 2, 3] bcast_S64x300x1x40_S64x300x40x40_0_1_2_3
          (cmpi .slt
            (broadcastInDim S64x300x1x40 ![0, 1, 2, 3] bcast_S1x1x1x40_S64x300x1x40_0_1_2_3
              (broadcastInDim S1x1x1x40 ![2, 3] bcast_S1x40_S1x1x1x40_2_3
                (broadcastInDim S1x40 ![1] bcast_S40_S1x40_1 (iotaInDim S40 32 0))))
            (broadcastInDim S64x300x1x40 ![0, 1, 2, 3] bcast_S64x300x1x1_S64x300x1x40_0_1_2_3
              (broadcastInDim S64x300x1x1 ![0, 1] bcast_S64x300_S64x300x1x1_0_1 X1)))))
        (broadcastInDim S64x300x40x40 ![0, 1, 2, 3] bcast_S64x300x1x40_S64x300x40x40_0_1_2_3
          (cmpi .sgt
            (broadcastInDim S64x300x1x40 ![0, 1, 2, 3] bcast_S1x1x1x40_S64x300x1x40_0_1_2_3
              (broadcastInDim S1x1x1x40 ![2, 3] bcast_S1x40_S1x1x1x40_2_3
                (broadcastInDim S1x40 ![1] bcast_S40_S1x40_1 (iotaInDim S40 32 0))))
            (broadcastInDim S64x300x1x40 ![0, 1, 2, 3] bcast_S64x300x1x1_S64x300x1x40_0_1_2_3
              (broadcastInDim S64x300x1x1 ![0, 1] bcast_S64x300_S64x300x1x1_0_1 X2)))))
      (ix5 0 b q h w)
    = Cert.BoxMask.outside (X1 (ix2 b q)) (Y1 (ix2 b q)) (X2 (ix2 b q)) (Y2 (ix2 b q))
        (BitVec.ofNat 32 h.val) (BitVec.ofNat 32 w.val) := by
  rw [read_lead]
  simp only [ori_apply]
  rw [read_spread_cols, read_spread_rows, read_spread_rows]
  simp only [ori_apply, cmpi_apply]
  rw [read_row_ramp, read_col_ramp, read_bq_row, read_bq_row, read_bq_col, read_bq_col]
  rfl

/-! ## The eight bound arrays, as the program spells them -/

/-- Branch 0's left bound x1 per (image, query), as the program spells it: the array its column comparison `w < ·` reads. -/
def refX1_0 (V0 : Valuation τ sig (Elt Ideal)) : IVec Cert.BoxMask.SB 32 :=
  fptosi 32 (Host.floor (Host.divf (mulf (subf (res_main_v1 V0) (mulf (broadcastInDim S64x300 ![] bcast_S_S64x300 (constant S_ .f32 0x3F000000#32)) (res_main_v5 V0))) (broadcastInDim S64x300 ![0, 1] bcast_S64x1_S64x300_0_1 (res_main_v21 V0))) (broadcastInDim S64x300 ![] bcast_S_S64x300 (constant S_ .f32 0x42000000#32))))

/-- Branch 0's top bound y1: the array its row comparison `h < ·` reads. -/
def refY1_0 (V0 : Valuation τ sig (Elt Ideal)) : IVec Cert.BoxMask.SB 32 :=
  fptosi 32 (Host.floor (Host.divf (mulf (subf (res_main_v3 V0) (mulf (broadcastInDim S64x300 ![] bcast_S_S64x300 (constant S_ .f32 0x3F000000#32)) (res_main_v7 V0))) (broadcastInDim S64x300 ![0, 1] bcast_S64x1_S64x300_0_1 (res_main_v23 V0))) (broadcastInDim S64x300 ![] bcast_S_S64x300 (constant S_ .f32 0x42000000#32))))

/-- Branch 0's right bound x2 (capped at 39): the array its column comparison `w > ·` reads. -/
def refX2_0 (V0 : Valuation τ sig (Elt Ideal)) : IVec Cert.BoxMask.SB 32 :=
  minsi (fptosi 32 (Host.floor (Host.divf (mulf (addf (res_main_v1 V0) (mulf (broadcastInDim S64x300 ![] bcast_S_S64x300 (constant S_ .f32 0x3F000000#32)) (res_main_v5 V0))) (broadcastInDim S64x300 ![0, 1] bcast_S64x1_S64x300_0_1 (res_main_v21 V0))) (broadcastInDim S64x300 ![] bcast_S_S64x300 (constant S_ .f32 0x42000000#32))))) (broadcastInDim S64x300 ![] bcast_S_S64x300 (constantI S_ 32 39#32))

/-- Branch 0's bottom bound y2 (capped at 39): the array its row comparison `h > ·` reads. -/
def refY2_0 (V0 : Valuation τ sig (Elt Ideal)) : IVec Cert.BoxMask.SB 32 :=
  minsi (fptosi 32 (Host.floor (Host.divf (mulf (addf (res_main_v3 V0) (mulf (broadcastInDim S64x300 ![] bcast_S_S64x300 (constant S_ .f32 0x3F000000#32)) (res_main_v7 V0))) (broadcastInDim S64x300 ![0, 1] bcast_S64x1_S64x300_0_1 (res_main_v23 V0))) (broadcastInDim S64x300 ![] bcast_S_S64x300 (constant S_ .f32 0x42000000#32))))) (broadcastInDim S64x300 ![] bcast_S_S64x300 (constantI S_ 32 39#32))

/-- Branch 1's left bound x1: the array its column comparison `w < ·` reads. -/
def refX1_1 (V0 : Valuation τ sig (Elt Ideal)) : IVec Cert.BoxMask.SB 32 :=
  fptosi 32 (Host.floor (Host.divf (mulf (subf (res_main_v83 V0) (mulf (broadcastInDim S64x300 ![] bcast_S_S64x300 (constant S_ .f32 0x3F000000#32)) (res_main_v87 V0))) (broadcastInDim S64x300 ![0, 1] bcast_S64x1_S64x300_0_1 (res_main_v103 V0))) (broadcastInDim S64x300 ![] bcast_S_S64x300 (constant S_ .f32 0x42000000#32))))

/-- Branch 1's top bound y1: the array its row comparison `h < ·` reads. -/
def refY1_1 (V0 : Valuation τ sig (Elt Ideal)) : IVec Cert.BoxMask.SB 32 :=
  fptosi 32 (Host.floor (Host.divf (mulf (subf (res_main_v85 V0) (mulf (broadcastInDim S64x300 ![] bcast_S_S64x300 (constant S_ .f32 0x3F000000#32)) (res_main_v89 V0))) (broadcastInDim S64x300 ![0, 1] bcast_S64x1_S64x300_0_1 (res_main_v105 V0))) (broadcastInDim S64x300 ![] bcast_S_S64x300 (constant S_ .f32 0x42000000#32))))

/-- Branch 1's right bound x2 (capped at 39): the array its column comparison `w > ·` reads. -/
def refX2_1 (V0 : Valuation τ sig (Elt Ideal)) : IVec Cert.BoxMask.SB 32 :=
  minsi (fptosi 32 (Host.floor (Host.divf (mulf (addf (res_main_v83 V0) (mulf (broadcastInDim S64x300 ![] bcast_S_S64x300 (constant S_ .f32 0x3F000000#32)) (res_main_v87 V0))) (broadcastInDim S64x300 ![0, 1] bcast_S64x1_S64x300_0_1 (res_main_v103 V0))) (broadcastInDim S64x300 ![] bcast_S_S64x300 (constant S_ .f32 0x42000000#32))))) (broadcastInDim S64x300 ![] bcast_S_S64x300 (constantI S_ 32 39#32))

/-- Branch 1's bottom bound y2 (capped at 39): the array its row comparison `h > ·` reads. -/
def refY2_1 (V0 : Valuation τ sig (Elt Ideal)) : IVec Cert.BoxMask.SB 32 :=
  minsi (fptosi 32 (Host.floor (Host.divf (mulf (addf (res_main_v85 V0) (mulf (broadcastInDim S64x300 ![] bcast_S_S64x300 (constant S_ .f32 0x3F000000#32)) (res_main_v89 V0))) (broadcastInDim S64x300 ![0, 1] bcast_S64x1_S64x300_0_1 (res_main_v105 V0))) (broadcastInDim S64x300 ![] bcast_S_S64x300 (constant S_ .f32 0x42000000#32))))) (broadcastInDim S64x300 ![] bcast_S_S64x300 (constantI S_ 32 39#32))

/-- The eight bound arrays by branch `r` and by `k` = 0, 1, 2, 3 for x1, y1, x2, y2. -/
def refB (V0 : Valuation τ sig (Elt Ideal)) : Fin 2 → Fin 4 → IVec Cert.BoxMask.SB 32 := fun r k =>
  match r, k with
  | 0, 0 => refX1_0 V0 | 0, 1 => refY1_0 V0 | 0, 2 => refX2_0 V0 | 0, 3 => refY2_0 V0
  | 1, 0 => refX1_1 V0 | 1, 1 => refY1_1 V0 | 1, 2 => refX2_1 V0 | 1, 3 => refY2_1 V0

theorem refB_0_0 (V0 : Valuation τ sig (Elt Ideal)) : refB V0 0 0 = refX1_0 V0 := rfl
theorem refB_0_1 (V0 : Valuation τ sig (Elt Ideal)) : refB V0 0 1 = refY1_0 V0 := rfl
theorem refB_0_2 (V0 : Valuation τ sig (Elt Ideal)) : refB V0 0 2 = refX2_0 V0 := rfl
theorem refB_0_3 (V0 : Valuation τ sig (Elt Ideal)) : refB V0 0 3 = refY2_0 V0 := rfl
theorem refB_1_0 (V0 : Valuation τ sig (Elt Ideal)) : refB V0 1 0 = refX1_1 V0 := rfl
theorem refB_1_1 (V0 : Valuation τ sig (Elt Ideal)) : refB V0 1 1 = refY1_1 V0 := rfl
theorem refB_1_2 (V0 : Valuation τ sig (Elt Ideal)) : refB V0 1 2 = refX2_1 V0 := rfl
theorem refB_1_3 (V0 : Valuation τ sig (Elt Ideal)) : refB V0 1 3 = refY2_1 V0 := rfl

/-! ## The result term is the specification -/

set_option maxRecDepth 8192 in
/-- The program's result bit at (r, b, q, h, w): the stack of the two branches along the leading axis reads branch r
    at (0, b, q, h, w), and a branch there is the outside-bit against its own four arrays. -/
theorem ref_bit (V0 : Valuation τ sig (Elt Ideal)) (r : Fin 2) (b : Fin 64) (q : Fin 300) (h w : Fin 40) :
    (res_main_v166 (F := Ideal) V0 : IVec S2x64x300x40x40 1) (ix5 r b q h w)
      = Cert.BoxMask.outside (refB V0 r 0 (ix2 b q)) (refB V0 r 1 (ix2 b q)) (refB V0 r 2 (ix2 b q))
          (refB V0 r 3 (ix2 b q)) (BitVec.ofNat 32 h.val) (BitVec.ofNat 32 w.val) := by
  unfold res_main_v166 res_main_v53 res_main_v55 res_main_v135 res_main_v137
  match r with
  | ⟨0, _⟩ =>
    refine (concatenate_pair_apply_left (t := S2x64x300x40x40) (s₁ := S1x64x300x40x40) (s₂ := S1x64x300x40x40)
      0 _ _ _ (ix5 ⟨0, _⟩ b q h w) rfl (ix5 0 b q h w)
      (by intro a; match a with | ⟨0, _⟩ => rfl | ⟨1, _⟩ => rfl | ⟨2, _⟩ => rfl | ⟨3, _⟩ => rfl | ⟨4, _⟩ => rfl)).trans ?_
    rw [read_branch]
    rfl
  | ⟨1, _⟩ =>
    refine (concatenate_pair_apply_right (t := S2x64x300x40x40) (s₁ := S1x64x300x40x40) (s₂ := S1x64x300x40x40)
      0 _ _ _ (ix5 ⟨1, _⟩ b q h w) rfl rfl (ix5 0 b q h w)
      (by intro a; match a with
        | ⟨0, _⟩ => exact fun hne => absurd rfl hne
        | ⟨1, _⟩ => exact fun _ => rfl | ⟨2, _⟩ => exact fun _ => rfl | ⟨3, _⟩ => exact fun _ => rfl
        | ⟨4, _⟩ => exact fun _ => rfl)
      rfl).trans ?_
    rw [read_branch]
    rfl

/-- The reference's result — its bit mask converted to floats — is the specification's mask of the eight bound arrays. -/
theorem ref_eq_mask (V0 : Valuation τ sig (Elt Ideal)) :
    (uitofp .f32 (res_main_v166 (F := Ideal) V0) : FVec Ideal S2x64x300x40x40 .f32) = Cert.BoxMask.mask (refB V0) := by
  funext i
  obtain ⟨r, b, q, h, w, rfl⟩ : ∃ (r : Fin 2) (b : Fin 64) (q : Fin 300) (h w : Fin 40), i = ix5 r b q h w :=
    ⟨i 0, i 1, i 2, i 3, i 4, eq_ix5 i⟩
  show FloatOps.uitofp (F := Ideal) .f32 ((res_main_v166 (F := Ideal) V0 : IVec S2x64x300x40x40 1) (ix5 r b q h w))
    = FloatOps.uitofp (F := Ideal) .f32
        (Cert.BoxMask.outside (refB V0 r 0 (ix2 b q)) (refB V0 r 1 (ix2 b q)) (refB V0 r 2 (ix2 b q))
          (refB V0 r 3 (ix2 b q)) (BitVec.ofNat 32 h.val) (BitVec.ofNat 32 w.val))
  rw [ref_bit]

end Cert.ReferenceIdeal.RefValue

end
-- ==== Proof.Bridge.lean ====
/-
  The two programs compute the same bounds.

  Each program turns the same inputs — two arrays of boxes (centre x, centre y, width, height per (image, query)) and the
  image sizes — into eight word arrays, the bounds x1, y1, x2, y2 of an inclusive box for each of two branches: a corner
  is the centre less or plus half the extent, scaled by the image size, divided by 32, floored and converted to a word,
  the upper corners capped at 39. The two spell this arithmetic operation for operation alike, over shapes that are the
  same literals; so once the inputs are identified the sixteen terms agree pairwise as they stand, and nothing of the
  float arithmetic is opened.
-/
import proofs.«101547_j12352325943704_2_alg».proof.Proof.KernelIdeal.Bounds
import proofs.«101547_j12352325943704_2_alg».proof.Proof.RefRead

noncomputable section

namespace Cert.Bridge

open Idealize.ShloMosaic

/-- Fed the same two box arrays and the same image sizes, the two programs compute the same eight bound arrays: the host
    operations of one and the operations of the other are the same arithmetic, operation for operation, on the same
    shapes. -/
theorem kerB_eq_refB
    (Vk : Valuation Cert.KernelIdeal.τ Cert.KernelIdeal.sig (Elt Ideal))
    (Vr : Valuation Cert.ReferenceIdeal.τ Cert.ReferenceIdeal.sig (Elt Ideal))
    (h0 : Vk (Proc.devRef .tc Cert.KernelIdeal.main_arg0) = Vr (Proc.devRef .tc Cert.ReferenceIdeal.main_arg0))
    (h1 : Vk (Proc.devRef .tc Cert.KernelIdeal.main_arg1) = Vr (Proc.devRef .tc Cert.ReferenceIdeal.main_arg1))
    (h2 : Vk (Proc.devRef .tc Cert.KernelIdeal.main_arg2) = Vr (Proc.devRef .tc Cert.ReferenceIdeal.main_arg2)) :
    Cert.KernelIdeal.Hand.kerB (F := Ideal) Vk = Cert.ReferenceIdeal.RefValue.refB Vr := by
  funext r k
  match r, k with
  | ⟨0, _⟩, ⟨0, _⟩ =>
    show Cert.KernelIdeal.Hand.kerX1_0 Vk = Cert.ReferenceIdeal.RefValue.refX1_0 Vr
    unfold Cert.KernelIdeal.Hand.kerX1_0 Cert.ReferenceIdeal.RefValue.refX1_0 Cert.ReferenceIdeal.Value.res_main_v1 Cert.ReferenceIdeal.Value.res_main_v5 Cert.ReferenceIdeal.Value.res_main_v21
    rw [h0, h2] <;> rfl
  | ⟨0, _⟩, ⟨1, _⟩ =>
    show Cert.KernelIdeal.Hand.kerY1_0 Vk = Cert.ReferenceIdeal.RefValue.refY1_0 Vr
    unfold Cert.KernelIdeal.Hand.kerY1_0 Cert.ReferenceIdeal.RefValue.refY1_0 Cert.ReferenceIdeal.Value.res_main_v3 Cert.ReferenceIdeal.Value.res_main_v7 Cert.ReferenceIdeal.Value.res_main_v23
    rw [h0, h2] <;> rfl
  | ⟨0, _⟩, ⟨2, _⟩ =>
    show Cert.KernelIdeal.Hand.kerX2_0 Vk = Cert.ReferenceIdeal.RefValue.refX2_0 Vr
    unfold Cert.KernelIdeal.Hand.kerX2_0 Cert.ReferenceIdeal.RefValue.refX2_0 Cert.ReferenceIdeal.Value.res_main_v1 Cert.ReferenceIdeal.Value.res_main_v5 Cert.ReferenceIdeal.Value.res_main_v21
    rw [h0, h2] <;> rfl
  | ⟨0, _⟩, ⟨3, _⟩ =>
    show Cert.KernelIdeal.Hand.kerY2_0 Vk = Cert.ReferenceIdeal.RefValue.refY2_0 Vr
    unfold Cert.KernelIdeal.Hand.kerY2_0 Cert.ReferenceIdeal.RefValue.refY2_0 Cert.ReferenceIdeal.Value.res_main_v3 Cert.ReferenceIdeal.Value.res_main_v7 Cert.ReferenceIdeal.Value.res_main_v23
    rw [h0, h2] <;> rfl
  | ⟨1, _⟩, ⟨0, _⟩ =>
    show Cert.KernelIdeal.Hand.kerX1_1 Vk = Cert.ReferenceIdeal.RefValue.refX1_1 Vr
    unfold Cert.KernelIdeal.Hand.kerX1_1 Cert.ReferenceIdeal.RefValue.refX1_1 Cert.ReferenceIdeal.Value.res_main_v83 Cert.ReferenceIdeal.Value.res_main_v87 Cert.ReferenceIdeal.Value.res_main_v103
    rw [h1, h2] <;> rfl
  | ⟨1, _⟩, ⟨1, _⟩ =>
    show Cert.KernelIdeal.Hand.kerY1_1 Vk = Cert.ReferenceIdeal.RefValue.refY1_1 Vr
    unfold Cert.KernelIdeal.Hand.kerY1_1 Cert.ReferenceIdeal.RefValue.refY1_1 Cert.ReferenceIdeal.Value.res_main_v85 Cert.ReferenceIdeal.Value.res_main_v89 Cert.ReferenceIdeal.Value.res_main_v105
    rw [h1, h2] <;> rfl
  | ⟨1, _⟩, ⟨2, _⟩ =>
    show Cert.KernelIdeal.Hand.kerX2_1 Vk = Cert.ReferenceIdeal.RefValue.refX2_1 Vr
    unfold Cert.KernelIdeal.Hand.kerX2_1 Cert.ReferenceIdeal.RefValue.refX2_1 Cert.ReferenceIdeal.Value.res_main_v83 Cert.ReferenceIdeal.Value.res_main_v87 Cert.ReferenceIdeal.Value.res_main_v103
    rw [h1, h2] <;> rfl
  | ⟨1, _⟩, ⟨3, _⟩ =>
    show Cert.KernelIdeal.Hand.kerY2_1 Vk = Cert.ReferenceIdeal.RefValue.refY2_1 Vr
    unfold Cert.KernelIdeal.Hand.kerY2_1 Cert.ReferenceIdeal.RefValue.refY2_1 Cert.ReferenceIdeal.Value.res_main_v85 Cert.ReferenceIdeal.Value.res_main_v89 Cert.ReferenceIdeal.Value.res_main_v105
    rw [h1, h2] <;> rfl

end Cert.Bridge

end
-- ==== Proof.lean ====
/-
  The certificate of one kernel against its reference: for two branches × 64 images × 300 queries, the 40 × 40 mask of
  the feature-map cells OUTSIDE each query's integer box.

  Both programs compute the box bounds from the arguments by the same host operations (a centre-size box scaled by the
  image size, divided by 32, floored, converted to 32-bit integers, the upper bounds capped at 39) — those float terms are
  never opened: each side's bound arrays are read as the same terms of the arguments (`Cert.Bridge.kerB_eq_refB`).
  The reference compares the row and column numbers of the cells, as two broadcast ramps, against the bounds
  (`ref_eq_mask`); the kernel stacks the bounds into one [2, 64, 300, 4] array, runs a pipelined region over a
  2 × 8 × 3 grid whose body compares the 1600 flattened cell numbers — row n / 40, column n mod 40 — against the four
  words of each row, and reshapes the [2, 64, 300, 1600] result to [2, 64, 300, 40, 40] (`run_read`). Both results are
  ONE function of the bound arrays, `Cert.BoxMask.mask`: a bit widened and read signed is the bit read unsigned.
  No law of the extended reals is used, so the precondition (finite float inputs) is never opened.

  The three frames: each kernel program's by the library's launch theorem over a hand-written body triple (the third
  block of queries overhangs the arrays by 12 rows; the rows of the result inside the array read only rows of the input
  inside it), once at the word-level instance and once at the exact one; the reference's is its run with the result
  dropped. The idealization rewrote no operation, so `preserves` is trivial.
-/
import proofs.«101547_j12352325943704_2_alg».proof.Defs
import proofs.«101547_j12352325943704_2_alg».proof.Proof.Gen.Kernel
import proofs.«101547_j12352325943704_2_alg».proof.Proof.Gen.KernelIdeal
import proofs.«101547_j12352325943704_2_alg».proof.Proof.Gen.ReferenceIdeal
import proofs.«101547_j12352325943704_2_alg».proof.Proof.Gen.Pre_finite_inputs
import proofs.«101547_j12352325943704_2_alg».proof.Proof.Gen.ReferenceIdeal.Run
import proofs.«101547_j12352325943704_2_alg».proof.Proof.Kernel.Frame
import proofs.«101547_j12352325943704_2_alg».proof.Proof.KernelIdeal.Frame
import proofs.«101547_j12352325943704_2_alg».proof.Proof.KernelIdeal.Result
import proofs.«101547_j12352325943704_2_alg».proof.Proof.RefRead
import proofs.«101547_j12352325943704_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the exact instance, from memories agreeing on the arguments, both programs end at the mask of the same eight
    bound arrays. -/
theorem algebraic : Cert.algebraic_KernelIdeal_ReferenceIdeal := by
  intro m ρ m' ρ' _ hagree
  refine ⟨fun c => Cert.BoxMask.mask (Cert.KernelIdeal.Hand.kerB (F := Ideal) (fun b => m (c, b))),
    Cert.KernelIdeal.Hand.run_read m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_eq_mask,
    ← Cert.Bridge.kerB_eq_refB (fun b => m (c, b)) (StableHlo.launchContents m' c)
      (hagree c).1.symm (hagree c).2.1.symm (hagree c).2.2.1.symm]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
